-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S201x201 : Shape := ⟨2, ![201, 201]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S201x201 : S_.BroadcastsInDim S201x201 (![] : Fin 0 → Fin S201x201.rank)
  reducesTo_S201x201_S_d0_1 : S201x201.ReducesTo [0, 1] S_

variable [Facts]

def fn {F : FTy → Type} [FloatOps F] (main_arg0 : FVec F S8388608x2 .f32) (main_arg1 : FVec F S8388608x2 .f32) (main_arg2 : FVec F S201x201 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608x2 .f32 := Host.absf main_arg1
  let main_cst_0 : FVec F S_ .f32 := constant S_ .f32 0x7F800000#32
  let main_v5 : FVec F S8388608x2 .f32 := broadcastInDim S8388608x2 ![] bcast_S_S8388608x2 main_cst_0
  let main_v6 : IVec S8388608x2 1 := cmpf .olt main_v4 main_v5
  let main_c_1 : IVec S_ 1 := constantI S_ 1 1#1
  let main_v7 : IVec S_ 1 := (fun x v => Host.reduce IntOp.andi x v reducesTo_S8388608x2_S_d0_1 h_S_) main_v6 main_c_1
  let main_v8 : IVec S_ 1 := andi main_v3 main_v7
  let main_v9 : FVec F S201x201 .f32 := Host.absf main_arg2
  let main_cst_2 : FVec F S_ .f32 := constant S_ .f32 0x7F800000#32
  let main_v10 : FVec F S201x201 .f32 := broadcastInDim S201x201 ![] bcast_S_S201x201 main_cst_2
  let main_v11 : IVec S201x201 1 := cmpf .olt main_v9 main_v10
  let main_c_3 : IVec S_ 1 := constantI S_ 1 1#1
  let main_v12 : IVec S_ 1 := (fun x v => Host.reduce IntOp.andi x v reducesTo_S201x201_S_d0_1 h_S_) main_v11 main_c_3
  let main_v13 : IVec S_ 1 := andi main_v8 main_v12
  main_v13
-- ==== Kernel.lean ====
abbrev S8388608x2 : Shape := ⟨2, ![8388608, 2]⟩
abbrev S201x201 : Shape := ⟨2, ![201, 201]⟩
abbrev S2x1x1 : Shape := ⟨3, ![2, 1, 1]⟩
abbrev S4096x2 : Shape := ⟨2, ![4096, 2]⟩
abbrev S1x1x1 : Shape := ⟨3, ![1, 1, 1]⟩
abbrev S1x1 : Shape := ⟨2, ![1, 1]⟩
abbrev S4096x1 : Shape := ⟨2, ![4096, 1]⟩
abbrev S4096 : Shape := ⟨1, ![4096]⟩
abbrev S4096x201 : Shape := ⟨2, ![4096, 201]⟩
abbrev S1 : Shape := ⟨1, ![1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S201x201, .f32⟩
  | .hbm, ⟨3, _⟩ => ⟨S2x1x1, .f32⟩
  | .hbm, ⟨4, _⟩ => ⟨S1x1x1, .f32⟩
  | .hbm, ⟨5, _⟩ => ⟨S_, .f32⟩
  | .hbm, ⟨6, _⟩ => ⟨S1x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4096x2, .f32⟩
  | .local _ .vmem, ⟨1, _⟩ => ⟨S4096x2, .f32⟩
  | .local _ .vmem, ⟨2, _⟩ => ⟨S4096x2, .f32⟩
  | .local _ .vmem, ⟨3, _⟩ => ⟨S4096x2, .f32⟩
  | .local _ .vmem, ⟨4, _⟩ => ⟨S201x201, .f32⟩
  | .local _ .vmem, ⟨5, _⟩ => ⟨S1x1x1, .f32⟩
  | .local _ .vmem, ⟨6, _⟩ => ⟨S1x1x1, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 1024], ![false, false]⟩

def k0_mult1 : BitVec 32 :=
  let c0_i32_2 : BitVec 32 := 0#32
  let c4096_i32 : BitVec 32 := 4096#32
  let v6 : BitVec 32 := Scalar.muli c0_i32_2 c4096_i32
  v6
def k0_off1 : Fin 2 → Nat :=
  let c0_i32_2 : BitVec 32 := 0#32
  let c4096_i32 : BitVec 32 := 4096#32
  let v6 : BitVec 32 := Scalar.muli c0_i32_2 c4096_i32
  let v7 : BitVec 32 := v6
  let v8 : Index := Scalar.indexCast v7
  let c0_3 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S201x201 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S201x201_S201x201_0_0 : ∀ a, (![0, 0] : Fin 2 → Nat) a + S201x201.size a ≤ S201x201.size a
  h_S201x201 : 0 < S201x201.numel
  bitsLt_bf16_f32 : FTy.bits .bf16 < FTy.bits .f32
  h_S4096x2 : 0 < S4096x2.numel
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  iota_S4096x201_d1_w32 : S4096x201.Iotas .tc 32 [1]
  shapeCasts_S4096_S4096x1 : S4096.ShapeCasts S4096x1
  broadcasts_S4096x1_S4096x201 : S4096x1.Broadcasts S4096x201
  natLt_1_32 : 1 < 32
  reduces_S4096x201_S4096 : S4096x201.Reduces [1] S4096
  broadcasts_S4096x1_S4096x2 : S4096x1.Broadcasts S4096x2
  reduces_S4096x2_S4096 : S4096x2.Reduces [1] S4096
  reduces_S4096x1_S1 : S4096x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  dot_S4096x201_S201x201_S4096x201_1_0_0_1_n_n_wf : DotDims.WF S4096x201 S201x201 S4096x201 [1] [0] [0] [1] [] []
  hrank0 : 0 < grid0.rank
  k0_mult1_dvd : 4096 ∣ k0_mult1.toNat
  k0_off1_inb : ∀ a, k0_off1 a + S4096x2.size a ≤ S4096x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S8388608x2.size a
  hwx0_0 : ∀ i : grid0.Coords, EltTy.bits .f32 = 32 ∨ (Rect.block (s := S8388608x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S8388608x2.size a
  hwx0_1 : ∀ i : grid0.Coords, EltTy.bits .f32 = 32 ∨ (Rect.block (s := S8388608x2) S4096x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S201x201.size a ≤ S201x201.size a
  hwx0_2 : ∀ i : grid0.Coords, EltTy.bits .f32 = 32 ∨ (Rect.block (s := S201x201) S201x201.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S4096x201_S201x201_S4096x201_1_0_0_1_n_n : DotDims S4096x201 S201x201 S4096x201 where
  lhsContracting := [1]
  rhsContracting := [0]
  lhsNonContracting := [0]
  rhsNonContracting := [1]
  lhsBatch := []
  rhsBatch := []
  wf := dot_S4096x201_S201x201_S4096x201_1_0_0_1_n_n_wf

abbrev win0_0 : Pipeline.Window sig grid0 :=
  Pipeline.Window.ofSpec (Memref.whole main_arg0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S201x201.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608x2 : Shape := ⟨2, ![8388608, 2]⟩
abbrev S201x201 : Shape := ⟨2, ![201, 201]⟩
abbrev S8388608x1 : Shape := ⟨2, ![8388608, 1]⟩
abbrev S8388608 : Shape := ⟨1, ![8388608]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608x2, .f32⟩
  | .hbm, ⟨2, _⟩ => ⟨S201x201, .f32⟩
  | .hbm, ⟨3, _⟩ => ⟨S8388608x2, .f32⟩
  | .hbm, ⟨4, _⟩ => ⟨S8388608x2, .f32⟩
  | .hbm, ⟨5, _⟩ => ⟨S8388608x1, .f32⟩
  | .hbm, ⟨6, _⟩ => ⟨S8388608, .f32⟩
  | .hbm, ⟨7, _⟩ => ⟨S_, .f32⟩
  | .hbm, ⟨8, _⟩ => ⟨S8388608, .f32⟩
  | .hbm, ⟨9, _⟩ => ⟨S8388608, .f32⟩
  | .hbm, ⟨10, _⟩ => ⟨S_, .f32⟩
  | .hbm, ⟨11, _⟩ => ⟨S8388608, .f32⟩
  | .hbm, ⟨12, _⟩ => ⟨S8388608, .f32⟩
  | .hbm, ⟨13, _⟩ => ⟨S8388608x1, .f32⟩
  | .hbm, ⟨14, _⟩ => ⟨S8388608, .f32⟩
  | .hbm, ⟨15, _⟩ => ⟨S_, .f32⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S8388608, .f32⟩
  | .hbm, ⟨20, _⟩ => ⟨S8388608, .f32⟩
  | .hbm, ⟨21, _⟩ => ⟨S_, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .i32⟩
  | .hbm, ⟨26, _⟩ => ⟨S_, .i32⟩
  | .hbm, ⟨27, _⟩ => ⟨S8388608, .i32⟩
  | .hbm, ⟨28, _⟩ => ⟨S8388608, .i32⟩
  | .hbm, ⟨29, _⟩ => ⟨S_, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S8388608, .i32⟩
  | .hbm, ⟨34, _⟩ => ⟨S_, .i32⟩
  | .hbm, ⟨35, _⟩ => ⟨S8388608, .i32⟩
  | .hbm, ⟨36, _⟩ => ⟨S8388608, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S8388608, .i32⟩
  | .hbm, ⟨41, _⟩ => ⟨S8388608, .i32⟩
  | .hbm, ⟨42, _⟩ => ⟨S_, .i32⟩
  | .hbm, ⟨43, _⟩ => ⟨S8388608, .i32⟩
  | .hbm, ⟨44, _⟩ => ⟨S8388608, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S8388608, .i32⟩
  | .hbm, ⟨49, _⟩ => ⟨S8388608, .i32⟩
  | .hbm, ⟨50, _⟩ => ⟨S_, .i32⟩
  | .hbm, ⟨51, _⟩ => ⟨S8388608, .i32⟩
  | .hbm, ⟨52, _⟩ => ⟨S8388608, .i32⟩
  | .hbm, ⟨53, _⟩ => ⟨S_, .i32⟩
  | .hbm, ⟨54, _⟩ => ⟨S8388608, .i32⟩
  | .hbm, ⟨55, _⟩ => ⟨S8388608, .i1⟩
  | .hbm, ⟨56, _⟩ => ⟨S_, .i32⟩
  | .hbm, ⟨57, _⟩ => ⟨S8388608, .i32⟩
  | .hbm, ⟨58, _⟩ => ⟨S8388608, .i32⟩
  | .hbm, ⟨59, _⟩ => ⟨S8388608, .i32⟩
  | .hbm, ⟨60, _⟩ => ⟨S_, .i32⟩
  | .hbm, ⟨61, _⟩ => ⟨S8388608, .i32⟩
  | .hbm, ⟨62, _⟩ => ⟨S8388608, .i1⟩
  | .hbm, ⟨63, _⟩ => ⟨S_, .i32⟩
  | .hbm, ⟨64, _⟩ => ⟨S8388608, .i32⟩
  | .hbm, ⟨65, _⟩ => ⟨S8388608, .i32⟩
  | .hbm, ⟨66, _⟩ => ⟨S8388608, .i32⟩
  | .hbm, ⟨67, _⟩ => ⟨S8388608x1, .i32⟩
  | .hbm, ⟨68, _⟩ => ⟨S8388608x1, .i32⟩
  | .hbm, ⟨69, _⟩ => ⟨S8388608x2, .i32⟩
  | .hbm, ⟨70, _⟩ => ⟨S8388608, .f32⟩
  | .hbm, ⟨71, _⟩ => ⟨S8388608x1, .f32⟩
  | .hbm, ⟨72, _⟩ => ⟨S_, .f32⟩
  | .hbm, ⟨73, _⟩ => ⟨S8388608x1, .f32⟩
  | .hbm, ⟨74, _⟩ => ⟨S8388608x1, .f32⟩
  | .hbm, ⟨75, _⟩ => ⟨S_, .f32⟩
  | .hbm, ⟨76, _⟩ => ⟨S8388608x1, .f32⟩
  | .hbm, ⟨77, _⟩ => ⟨S8388608x1, .f32⟩
  | .hbm, ⟨78, _⟩ => ⟨S8388608x2, .f32⟩
  | .hbm, ⟨79, _⟩ => ⟨S8388608x2, .f32⟩
  | .hbm, ⟨80, _⟩ => ⟨S8388608x2, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_c_7 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v26 : Ref sig .tc := ⟨.hbm, 44, rfl⟩
abbrev main_c_8 : Ref sig .tc := ⟨.hbm, 45, rfl⟩
abbrev main_c_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v27 : Ref sig .tc := ⟨.hbm, 52, rfl⟩
abbrev main_c_10 : Ref sig .tc := ⟨.hbm, 53, rfl⟩
abbrev main_v28 : Ref sig .tc := ⟨.hbm, 54, rfl⟩
abbrev main_v29 : Ref sig .tc := ⟨.hbm, 55, rfl⟩
abbrev main_c_11 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_12 : Ref sig .tc := ⟨.hbm, 60, rfl⟩
abbrev main_v33 : Ref sig .tc := ⟨.hbm, 61, rfl⟩
abbrev main_v34 : Ref sig .tc := ⟨.hbm, 62, rfl⟩
abbrev main_c_13 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_cst_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_16 : Ref sig .tc := ⟨.hbm, 81, rfl⟩
abbrev main_v50 : Ref sig .tc := ⟨.hbm, 82, rfl⟩
abbrev main_cst_17 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  slices_S8388608x2_S8388608x1_0_0 : S8388608x2.Slices ![0, 0] S8388608x1
  shapeCasts_S8388608x1_S8388608 : S8388608x1.ShapeCasts S8388608
  bcast_S_S8388608 : S_.BroadcastsInDim S8388608 (![] : Fin 0 → Fin S8388608.rank)
  slices_S8388608x2_S8388608x1_0_1 : S8388608x2.Slices ![0, 1] S8388608x1
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  bcast_S_S8388608x1 : S_.BroadcastsInDim S8388608x1 (![] : Fin 0 → Fin S8388608x1.rank)
  bcast_S8388608x1_S8388608x2_0_1 : S8388608x1.BroadcastsInDim S8388608x2 (![0, 1] : Fin 2 → Fin S8388608x2.rank)
  reducesTo_S8388608x2_S_d0_1 : S8388608x2.ReducesTo [0, 1] S_
  h_S_ : 0 < S_.numel
  gather_S201x201_S8388608x2_S8388608_n_01_n_n_01_1_11_wf : GatherDims.WF S201x201 S8388608x2 S8388608 [] [0, 1] [] [0, 1] [] 1 ![1, 1]

variable [Facts₀]

def gather_S201x201_S8388608x2_S8388608_n_01_n_n_01_1_11 : GatherDims S201x201 S8388608x2 S8388608 where
  offsetDims := []
  collapsedSliceDims := [0, 1]
  operandBatchingDims := []
  startIndicesBatchingDims := []
  startIndexMap := [0, 1]
  indexVectorDim := 1
  sliceSizes := ![1, 1]
  wf := gather_S201x201_S8388608x2_S8388608_n_01_n_n_01_1_11_wf

class Facts : Prop extends Facts₀ where

variable [Facts]
-- ==== Proof.KernelPieces.lean ====
/-
  What each control case of the kernel body leaves in the output block's staging buffer, as one pure term.

  At a point that is not the first of its half the body reads the running total `acc` from the buffer and stores the
  payload of the three input blocks and `acc`. At the first point of a half it first stores zero, reads that back, and
  stores the payload of the input blocks and zero.
-/
import proofs.«181261_j69810398429186_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The body's computed row offset `0 · 4096` is zero on both axes. -/
theorem off_zero : k0_off1 = fun _ => 0 := k0_off1_eq.trans hz2

/-- A load of a whole buffer at zero offsets reads its contents. -/
theorem load_whole {S : Shape} {e : EltTy} (a : Memref sig .tc .vmem S e) (h : a.IsWhole) (x : Vec F S e)
    (off : Fin S.rank → Nat) (hoff : off = fun _ => 0) (inb : ∀ a, off a + S.size a ≤ S.size a) :
    View.readAt (Elt F) a.view (Rect.unit off S.size inb).toLoadRect (h.unread x) = x := by
  subst hoff
  simp only [View.readAt_eq_ld, h.read_unread, View.ld_unit_zero (S := S) rfl]

/-- The payload is a function of the four values it loads. -/
theorem pay_congr {A x2 : Vec F S201x201 .f32} {B x0 C x1 : Vec F S4096x2 .f32} {D xo : Vec F S1x1x1 .f32}
    (hA : A = x2) (hB : B = x0) (hC : C = x1) (hD : D = xo) :
    k0_pay1 (k0_pay3 A) (k0_pay4 (F := F)) (k0_pay5 B C) (k0_pay6 B) (k0_pay7 B) 0#32 200#32 D
      = k0_pay1 (k0_pay3 x2) (k0_pay4 (F := F)) (k0_pay5 x0 x1) (k0_pay6 x0) (k0_pay7 x0) 0#32 200#32 xo := by
  subst hA hB hC hD; rfl

/-- A later point of a half: the payload of the blocks and the running total. -/
theorem out_B (c : Dev nD) (i : grid0.Coords) (a2 : Memref sig .tc .vmem S4096x2 .f32) (h2 : a2.IsWhole)
    (a3 : Memref sig .tc .vmem S4096x2 .f32) (h3 : a3.IsWhole) (a4 : Memref sig .tc .vmem S201x201 .f32) (h4 : a4.IsWhole)
    (a5 : Memref sig .tc .vmem S1x1x1 .f32) (h5 : a5.IsWhole) (hc : ¬cond0_0 i)
    (x0 x1 : Vec F S4096x2 .f32) (x2 : Vec F S201x201 .f32) (xo : Vec F S1x1x1 .f32) :
    out0_B_3 c i a2 h2 a3 h3 a4 h4 a5 h5 hc x0 x1 x2 xo
      = k0_pay1 (k0_pay3 x2) (k0_pay4 (F := F)) (k0_pay5 x0 x1) (k0_pay6 x0) (k0_pay7 x0) 0#32 200#32 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  exact pay_congr (load_whole a4 h4 x2 _ hz2 _) (load_whole a2 h2 x0 _ off_zero _) (load_whole a3 h3 x1 _ off_zero _)
    (load_whole a5 h5 xo _ hz3 _)

/-- The first point of a half: zero is stored and read back, then the payload of the blocks and zero. -/
theorem out_A (c : Dev nD) (i : grid0.Coords) (a2 : Memref sig .tc .vmem S4096x2 .f32) (h2 : a2.IsWhole)
    (a3 : Memref sig .tc .vmem S4096x2 .f32) (h3 : a3.IsWhole) (a4 : Memref sig .tc .vmem S201x201 .f32) (h4 : a4.IsWhole)
    (a5 : Memref sig .tc .vmem S1x1x1 .f32) (h5 : a5.IsWhole) (hc : cond0_0 i)
    (x0 x1 : Vec F S4096x2 .f32) (x2 : Vec F S201x201 .f32) :
    out0_A_3 c i a2 h2 a3 h3 a4 h4 a5 h5 hc x0 x1 x2
      = k0_pay1 (k0_pay3 x2) (k0_pay4 (F := F)) (k0_pay5 x0 x1) (k0_pay6 x0) (k0_pay7 x0) 0#32 200#32 (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) hz3, View.readCov_unit_zero (S := S1x1x1) _ hz3]
  exact pay_congr (load_whole a4 h4 x2 _ hz2 _) (load_whole a2 h2 x0 _ off_zero _) (load_whole a3 h3 x1 _ off_zero _) rfl

end Cert.KernelIdeal.Pieces

end
-- ==== Proof.CellSelect.lean ====
/-
  Two facts about selecting a cell of a 201-wide table.

  A cell index is an integer clamped into `[0, 200]`: `clampCell x = min 200 (max 0 x)` on signed 32-bit words. Its signed
  and unsigned readings agree and are at most 200, so it is never negative.

  A one-hot row `k ↦ [k = c]` (the compare's bit zero-extended and converted, so the extended real `1` or `0`) weighted
  against a row of 201 extended reals sums to the one entry at `c`: every other product is `0 · w = 0`, which holds for
  every extended real `w`, so no finiteness is used.
-/
import Idealize.ShloMosaic.PureOps.Ideal.Laws
import Idealize.ShloMosaic.Lib.ValueIdx

noncomputable section

namespace Cert.GridLoss

open Idealize.ShloMosaic

/-- A cell index clamped into the table's range: `min 200 (max 0 x)`, signed. -/
def clampCell (x : BitVec 32) : BitVec 32 := IntOp.minsi 200#32 (IntOp.maxsi 0#32 x)

theorem clampCell_toInt (x : BitVec 32) : 0 ≤ (clampCell x).toInt ∧ (clampCell x).toInt ≤ 200 := by
  have h0 : (0#32 : BitVec 32).toInt = 0 := by decide
  have h200 : (200#32 : BitVec 32).toInt = 200 := by decide
  unfold clampCell IntOp.minsi IntOp.maxsi
  by_cases h1 : x.slt 0#32 = true
  · rw [if_pos h1]
    have h2 : ¬ ((200#32 : BitVec 32).slt 0#32 = true) := by decide
    rw [if_neg h2, h0]; omega
  · rw [if_neg h1]
    have hx : 0 ≤ x.toInt := by
      have : ¬ (x.toInt < (0#32 : BitVec 32).toInt) := by simpa [BitVec.slt] using h1
      rw [h0] at this; omega
    by_cases h2 : (200#32 : BitVec 32).slt x = true
    · rw [if_pos h2, h200]; omega
    · rw [if_neg h2]
      have : ¬ ((200#32 : BitVec 32).toInt < x.toInt) := by simpa [BitVec.slt] using h2
      rw [h200] at this; omega

/-- The clamped index read signed is its unsigned value. -/
theorem clampCell_toInt_eq (x : BitVec 32) : (clampCell x).toInt = ((clampCell x).toNat : Int) := by
  have h := (clampCell_toInt x).1
  rw [BitVec.toInt_eq_toNat_cond] at h ⊢
  split at h <;> rename_i hc
  · rw [if_pos hc]
  · have := (clampCell x).isLt; omega

theorem clampCell_toNat_le (x : BitVec 32) : (clampCell x).toNat ≤ 200 := by
  have h := (clampCell_toInt x).2
  rw [clampCell_toInt_eq] at h; omega

/-- It is not negative. -/
theorem clampCell_not_slt_zero (x : BitVec 32) : (clampCell x).slt 0#32 = false := by
  have h := (clampCell_toInt x).1
  have h0 : (0#32 : BitVec 32).toInt = 0 := by decide
  simp only [BitVec.slt, h0, decide_eq_false_iff_not, not_lt]
  exact h

/-- A never-negative index passes "add the extent if negative" unchanged. -/
theorem select_of_not_neg (c a : BitVec 32) (h : c.slt 0#32 = false) :
    Scalar.select (IntOp.cmpi .slt c 0#32) a c = c := by
  unfold Scalar.select IntOp.cmpi
  simp [h]

/-- Clamping the clamped index into `[0, 200]` once more, read signed, leaves its value. -/
theorem clampCell_min (x : BitVec 32) : min (clampCell x).toInt.toNat (201 - 1) = (clampCell x).toNat := by
  rw [clampCell_toInt_eq, Int.toNat_natCast]
  exact Nat.min_eq_left (clampCell_toNat_le x)

/-- The one-hot entry: the bit of `k = c`, zero-extended to a word and read signed, as an extended real. -/
def hot (k : Nat) (c : BitVec 32) : EReal :=
  ((((IntOp.cmpi .eq (BitVec.ofNat 32 k) c).setWidth 32).toInt : ℝ) : EReal)

theorem hot_eq (k : Nat) (hk : k < 201) (c : BitVec 32) : hot k c = if k = c.toNat then 1 else 0 := by
  unfold hot IntOp.cmpi
  by_cases h : k = c.toNat
  · have e : BitVec.ofNat 32 k = c := by subst h; simp
    rw [if_pos h, e]
    simp
  · have e : ¬ (BitVec.ofNat 32 k = c) := by
      intro e; apply h; rw [← e]; simp [BitVec.toNat_ofNat]; omega
    rw [if_neg h]
    have : (BitVec.ofNat 32 k == c) = false := by simpa using e
    simp [this]

/-- A one-hot row against 201 weights picks out the weight at the hot position. -/
theorem sum_hot_mul (c : BitVec 32) (hc : c.toNat ≤ 200) (w : Fin 201 → EReal) :
    ∑ k : Fin 201, hot k.val c * w k = w ⟨c.toNat, by omega⟩ := by
  rw [Finset.sum_eq_single (⟨c.toNat, by omega⟩ : Fin 201)]
  · rw [hot_eq _ (by omega), if_pos rfl, one_mul]
  · intro k _ hk
    rw [hot_eq _ k.isLt, if_neg (fun h => hk (Fin.ext h)), zero_mul]
  · intro h; exact absurd (Finset.mem_univ _) h

/-- The same with the one-hot factor on the right. -/
theorem sum_mul_hot (c : BitVec 32) (hc : c.toNat ≤ 200) (w : Fin 201 → EReal) :
    ∑ k : Fin 201, w k * hot k.val c = w ⟨c.toNat, by omega⟩ := by
  rw [← sum_hot_mul c hc w]
  exact Finset.sum_congr rfl fun k _ => mul_comm _ _

end Cert.GridLoss

end
-- ==== Proof.RowTerm.lean ====
/-
  The loss term of one row, over the extended reals.

  A row holds a prediction `(p₀, p₁)` and a label. The prediction is denormalised to a latitude `180 p₀ - 90` and a
  longitude `360 p₁ - 180`; the cell of the weight table is `(⌊lat / 0.9⌋ + 100, ⌊lon / 1.8⌋ + 100)` as integers, each
  clamped into `[0, 200]`; with `w` the table's entry there and `e = |p - l|` the absolute error of one coordinate, the term is
  `e + e · (0.1 - 0.1 · w)`. The literals are the single-precision words of the program text, read at their exact values.
-/
import proofs.«181261_j69810398429186_2_alg».proof.Proof.CellSelect

noncomputable section

namespace Cert.GridLoss

open Idealize.ShloMosaic Idealize.ShloMosaic.ValueIdx

/-- The latitude cell of a prediction's first coordinate. -/
def latCell (a : EReal) : BitVec 32 :=
  clampCell (IntOp.addi (Ideal.fptosi 32 (Ideal.liftRound Int.floor
    (Ideal.div (a * Ideal.ofBits .f32 0x43340000#32 - Ideal.ofBits .f32 0x42B40000#32) (Ideal.ofBits .f32 0x3F666666#32)))) 100#32)

/-- The longitude cell of a prediction's second coordinate. -/
def lonCell (a : EReal) : BitVec 32 :=
  clampCell (IntOp.addi (Ideal.fptosi 32 (Ideal.liftRound Int.floor
    (Ideal.div (a * Ideal.ofBits .f32 0x43B40000#32 - Ideal.ofBits .f32 0x43340000#32) (Ideal.ofBits .f32 0x3FE66666#32)))) 100#32)

/-- The gather's own clamp into the table leaves the latitude cell's value. -/
theorem latCell_min (a : EReal) : min (latCell a).toInt.toNat (201 - 1) = (latCell a).toNat := by
  unfold latCell; exact clampCell_min _

/-- The gather's own clamp into the table leaves the longitude cell's value. -/
theorem lonCell_min (a : EReal) : min (lonCell a).toInt.toNat (201 - 1) = (lonCell a).toNat := by
  unfold lonCell; exact clampCell_min _

/-- The latitude cell is never negative. -/
theorem latCell_not_neg (a : EReal) : (latCell a).slt 0#32 = false := by
  unfold latCell; exact clampCell_not_slt_zero _

/-- The longitude cell is never negative. -/
theorem lonCell_not_neg (a : EReal) : (lonCell a).slt 0#32 = false := by
  unfold lonCell; exact clampCell_not_slt_zero _

/-- The table's entry at the cell of the prediction `(p₀, p₁)`. -/
def weightAt (W : (⟨2, ![201, 201]⟩ : Shape).Idx → EReal) (p0 p1 : EReal) : EReal :=
  W (ix2 (⟨(latCell p0).toNat, Nat.lt_succ_of_le (clampCell_toNat_le _)⟩ : Fin 201)
         (⟨(lonCell p1).toNat, Nat.lt_succ_of_le (clampCell_toNat_le _)⟩ : Fin 201))

/-- One coordinate's term: `e + e · (0.1 - 0.1 · w)` with `e = |p - l|`. -/
def lossTerm (p l w : EReal) : EReal :=
  max (p - l) (-(p - l)) + max (p - l) (-(p - l)) * (Ideal.ofBits .f32 0x3DCCCCCD#32 - Ideal.ofBits .f32 0x3DCCCCCD#32 * w)

/-- A row's total: the two coordinates' terms at the row's weight. -/
def rowLoss (P L : (⟨2, ![8388608, 2]⟩ : Shape).Idx → EReal) (W : (⟨2, ![201, 201]⟩ : Shape).Idx → EReal)
    (r : Fin 8388608) : EReal :=
  ∑ c : Fin 2, lossTerm (P (ix2 r c)) (L (ix2 r c)) (weightAt W (P (ix2 r (0 : Fin 2))) (P (ix2 r (1 : Fin 2))))

/-- The same with the row given as a natural number (zero past the last row). -/
def rowLossN (P L : (⟨2, ![8388608, 2]⟩ : Shape).Idx → EReal) (W : (⟨2, ![201, 201]⟩ : Shape).Idx → EReal)
    (n : ℕ) : EReal :=
  if h : n < 8388608 then rowLoss P L W ⟨n, h⟩ else 0

end Cert.GridLoss

end
-- ==== Proof.LibColumnLayouts.lean ====
/-
  Small layout operations read at an index: a column `[a, 1]` recast as a vector `[a]` and back, a column broadcast along a
  second axis, and arrays with a single element. Each reads the operand at the position with the same row-major rank.
-/
import Idealize.ShloMosaic.Lib.Pipeline.Value
import Idealize.ShloMosaic.Lib.ValueIdx

noncomputable section

namespace Cert.GridLoss

open Idealize.ShloMosaic Idealize.ShloMosaic.ValueIdx

variable {α : Type}

/-- A column `[a, 1]` recast as `[a]` reads, at `i`, the column at `(i, 0)`. -/
theorem shapeCast_col_vec_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` recast as a column `[a, 1]` reads, at `(i, u)`, the vector at `i`. -/
theorem shapeCast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at `(p, 0)`. -/
theorem broadcastTo_col_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- Column `c` of an `[a, 2]` array cut out as a column `[a, 1]` reads, at `(i, u)`, the array at `(i, c)`. -/
theorem slice_col_apply {a : ℕ} (x : (⟨2, ![a, 2]⟩ : Shape).Idx → α) (c : Fin 2) (off : Fin 2 → Nat)
    (h0 : off 0 = 0) (h1 : off 1 = c.val) (h : (⟨2, ![a, 2]⟩ : Shape).Slices off ⟨2, ![a, 1]⟩) (i : Fin a) (u : Fin 1) :
    extractStridedSlice ⟨2, ![a, 1]⟩ off x h (ix2 i u) = x (ix2 i c) :=
  extractStridedSlice_apply off x h (ix2 i u) (ix2 i c) (fun ax => match ax with
    | ⟨0, _⟩ => by show i.val = off 0 + i.val; rw [h0]; omega
    | ⟨1, _⟩ => by show c.val = off 1 + u.val; rw [h1]; omega)

end Cert.GridLoss

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.KernelPayload.lean ====
/-
  The value the kernel body stores, read at the extended reals.

  At one grid point the body holds a block of 4096 rows of predictions `x₀` and labels `x₁`, the whole weight table `x₂`,
  and the running total `acc` of its half (one number). It stores `acc + (0 + s)`, where `s` is the block's loss:

    * each row's cell `(cx, cy)` is computed from the row's prediction and clamped into `[0, 200]`;
    * the row's weight is read with two one-hot rows: `(∑ₖ [k = cx] · x₂(k, c))` is the table's row `cx`, and summing it
      against `[c = cy]` leaves the entry `x₂(cx, cy)` (CellSelect: `0 · w = 0` for every extended real);
    * the row contributes `e + e · (0.1 - 0.1 · w)` for each of its two coordinates, `e` the absolute error;
    * the 4096 × 2 contributions are summed, columns first, then rows.

  The body's payload is split into named stages that compose to it by unfolding alone (`pay1_eq`); each stage is then
  read at an index.
-/
import proofs.«181261_j69810398429186_2_alg».proof.Proof.Gen.KernelIdeal.Skeleton
import proofs.«181261_j69810398429186_2_alg».proof.Proof.RowTerm
import proofs.«181261_j69810398429186_2_alg».proof.Proof.LibColumnLayouts
import proofs.«181261_j69810398429186_2_alg».proof.Proof.LibPlainDot
import Idealize.ShloMosaic.PureOps.Ideal.Laws

noncomputable section

namespace Cert.KernelIdeal.Block

open Cert.KernelIdeal Cert.KernelIdeal.Gen Cert.GridLoss Cert.Lib.PlainDot
open Idealize.ShloMosaic Idealize.ShloMosaic.ValueIdx

/-! ## The stages -/

/-- The clamped cell indices of a block's rows. -/
def cellVec (v : IVec S4096 32) : IVec S4096 32 := minsi (broadcast S4096 200#32) (maxsi (broadcast S4096 0#32) v)

/-- The one-hot matrix of a vector of indices: entry `(r, k)` is `[k = v r]`. -/
def hotMat (v : IVec S4096 32) : FVec Ideal S4096x201 .f32 :=
  sitofp .f32 (extui 32 (cmpi .eq (iota .tc S4096x201 32 [1] iota_S4096x201_d1_w32)
    (broadcastTo S4096x201 (shapeCast S4096x1 v shapeCasts_S4096_S4096x1) broadcasts_S4096x1_S4096x201)) natLt_1_32)

/-- The rows' weights: the one-hot product with the table, then the one-hot lane sum. -/
def weightVec (xi yi : IVec S4096 32) (W : FVec Ideal S201x201 .bf16) : FVec Ideal S4096 .f32 :=
  multiReduction .add [1] S4096
    (mulf (matmul dot_S4096x201_S201x201_S4096x201_1_0_0_1_n_n none (truncf .bf16 (hotMat (cellVec xi)) bitsLt_bf16_f32) W
      (constant S4096x201 .f32 0x00000000#32)) (hotMat (cellVec yi)))
    0x00000000#32 reduces_S4096x201_S4096 (.inl rfl) rfl

/-- The weighted errors of a block. -/
def weighted (e : FVec Ideal S4096x2 .f32) (w : FVec Ideal S4096 .f32) : FVec Ideal S4096x2 .f32 :=
  addf e (mulf e (broadcastTo S4096x2 (subf (broadcast S4096x1 (Scalar.ofBits .f32 0x3DCCCCCD#32))
    (mulf (broadcast S4096x1 (Scalar.ofBits .f32 0x3DCCCCCD#32)) (shapeCast S4096x1 w shapeCasts_S4096_S4096x1)))
    broadcasts_S4096x1_S4096x2))

/-- A block's total: columns summed per row, then the rows. -/
def blockTotal (v : FVec Ideal S4096x2 .f32) : FVec Ideal S1x1 .f32 :=
  shapeCast S1x1 (multiReduction .add [0] S1
    (shapeCast S4096x1 (multiReduction .add [1] S4096 v 0x00000000#32 reduces_S4096x2_S4096 (.inl rfl) rfl) shapeCasts_S4096_S4096x1)
    0x00000000#32 reduces_S4096x1_S1 (.inl rfl) rfl) shapeCasts_S1_S1x1

/-- The stored payload is the running total plus the accumulator-zero plus the block's total. -/
theorem pay1_eq (v4 : FVec Ideal S201x201 .bf16) (v5 : FVec Ideal S1x1 .f32) (v13 : FVec Ideal S4096x2 .f32)
    (v31 v37 : IVec S4096 32) (v74 : Vec Ideal S1x1x1 .f32) :
    k0_pay1 (F := Ideal) v4 v5 v13 v31 v37 0#32 200#32 v74
      = addf (shapeCast S1x1x1 v74 shapeCasts_S1x1x1_S1x1x1)
          (shapeCast S1x1x1 (addf v5 (blockTotal (weighted v13 (weightVec v31 v37 v4)))) shapeCasts_S1x1_S1x1x1) := rfl

/-! ## Each stage at an index -/

theorem cellVec_apply (v : IVec S4096 32) (i : S4096.Idx) : cellVec v i = clampCell (v i) := rfl

theorem iota_apply (r : Fin 4096) (k : Fin 201) :
    iota .tc S4096x201 32 [1] iota_S4096x201_d1_w32 (ix2 r k) = BitVec.ofNat 32 k.val := by
  unfold iota
  show BitVec.ofNat 32 (0 * 201 + k.val) = _
  rw [Nat.zero_mul, Nat.zero_add]

theorem hotMat_apply (v : IVec S4096 32) (r : Fin 4096) (k : Fin 201) :
    hotMat v (ix2 r k) = hot k.val (v (ix1 r)) := by
  have e1 : broadcastTo S4096x201 (shapeCast S4096x1 v shapeCasts_S4096_S4096x1) broadcasts_S4096x1_S4096x201 (ix2 r k)
      = v (ix1 r) :=
    (broadcastTo_col_apply (by decide) _ broadcasts_S4096x1_S4096x201 r k).trans
      (shapeCast_vec_col_apply v shapeCasts_S4096_S4096x1 r 0)
  show ((((IntOp.cmpi .eq (iota .tc S4096x201 32 [1] iota_S4096x201_d1_w32 (ix2 r k))
      (broadcastTo S4096x201 (shapeCast S4096x1 v shapeCasts_S4096_S4096x1) broadcasts_S4096x1_S4096x201 (ix2 r k))).setWidth 32).toInt : ℝ) : EReal) = _
  rw [e1, iota_apply]
  rfl

theorem dot_eq : dot_S4096x201_S201x201_S4096x201_1_0_0_1_n_n = DotDims.plain 4096 201 201 := rfl

/-- A row's weight is the table's entry at the row's clamped cell. -/
theorem weightVec_apply (xi yi : IVec S4096 32) (W : FVec Ideal S201x201 .bf16) (r : Fin 4096) :
    weightVec xi yi W (ix1 r)
      = W (ix2 (⟨(clampCell (xi (ix1 r))).toNat, Nat.lt_succ_of_le (clampCell_toNat_le _)⟩ : Fin 201)
               (⟨(clampCell (yi (ix1 r))).toNat, Nat.lt_succ_of_le (clampCell_toNat_le _)⟩ : Fin 201)) := by
  unfold weightVec
  refine (Ideal.multiReduction_add_single _ 0x00000000#32 reduces_S4096x201_S4096 (.inl rfl) rfl (ix1 r)).trans ?_
  have hl : ∀ k : Fin 201, reduces_S4096x201_S4096.lift (ix1 r) k = ix2 r k := fun k =>
    funext fun a => Fin.ext (by match a with | ⟨0, _⟩ => rfl | ⟨1, _⟩ => rfl)
  show ∑ k : Fin 201, _ = _
  have step : ∀ c : Fin 201,
      mulf (matmul dot_S4096x201_S201x201_S4096x201_1_0_0_1_n_n none (truncf .bf16 (hotMat (cellVec xi)) bitsLt_bf16_f32) W
        (constant S4096x201 .f32 0x00000000#32)) (hotMat (cellVec yi)) (reduces_S4096x201_S4096.lift (ix1 r) c)
      = W (ix2 (⟨(clampCell (xi (ix1 r))).toNat, Nat.lt_succ_of_le (clampCell_toNat_le _)⟩ : Fin 201) c)
          * hot c.val (clampCell (yi (ix1 r))) := by
    intro c
    rw [hl c]
    show (matmul (DotDims.plain 4096 201 201) none (truncf .bf16 (hotMat (cellVec xi)) bitsLt_bf16_f32) W
        (constant (F := Ideal) ⟨2, ![4096, 201]⟩ .f32 0x00000000#32)) (ix2 r c) * hotMat (cellVec yi) (ix2 r c) = _
    rw [matmul_zero, mm_apply, hotMat_apply, cellVec_apply]
    congr 1
    have : ∀ k : Fin 201, (truncf .bf16 (hotMat (cellVec xi)) bitsLt_bf16_f32 : FVec Ideal S4096x201 .bf16) (ix2 r k)
        * W (ix2 k c) = hot k.val (clampCell (xi (ix1 r))) * W (ix2 k c) := fun k => by
      show hotMat (cellVec xi) (ix2 r k) * _ = _
      rw [hotMat_apply, cellVec_apply]
    rw [Finset.sum_congr rfl fun k _ => this k]
    exact sum_hot_mul (clampCell (xi (ix1 r))) (clampCell_toNat_le _) fun k => W (ix2 k c)
  rw [Finset.sum_congr rfl fun c _ => step c]
  exact sum_mul_hot (clampCell (yi (ix1 r))) (clampCell_toNat_le _)
    fun c => W (ix2 (⟨(clampCell (xi (ix1 r))).toNat, Nat.lt_succ_of_le (clampCell_toNat_le _)⟩ : Fin 201) c)

/-- A weighted error: `e + e · (0.1 - 0.1 · w)` with the row's weight. -/
theorem weighted_apply (e : FVec Ideal S4096x2 .f32) (w : FVec Ideal S4096 .f32) (r : Fin 4096) (c : Fin 2) :
    weighted e w (ix2 r c)
      = e (ix2 r c) + e (ix2 r c) * (Ideal.ofBits .f32 0x3DCCCCCD#32 - Ideal.ofBits .f32 0x3DCCCCCD#32 * w (ix1 r)) := by
  have e1 : ∀ v : FVec Ideal S4096x1 .f32, broadcastTo S4096x2 v broadcasts_S4096x1_S4096x2 (ix2 r c) = v (ix2 r (0 : Fin 1)) :=
    fun v => broadcastTo_col_apply (by decide) v broadcasts_S4096x1_S4096x2 r c
  unfold weighted
  show e (ix2 r c) + e (ix2 r c) * (broadcastTo S4096x2 _ broadcasts_S4096x1_S4096x2 (ix2 r c)) = _
  rw [e1]
  show e (ix2 r c) + e (ix2 r c) * (Ideal.ofBits .f32 0x3DCCCCCD#32 - Ideal.ofBits .f32 0x3DCCCCCD#32
    * shapeCast S4096x1 w shapeCasts_S4096_S4096x1 (ix2 r (0 : Fin 1))) = _
  rw [shapeCast_vec_col_apply]

/-- A block's total is the sum over its rows and the two columns. -/
theorem blockTotal_apply (v : FVec Ideal S4096x2 .f32) (j : S1x1.Idx) :
    blockTotal v j = ∑ r : Fin 4096, ∑ c : Fin 2, v (ix2 r c) := by
  obtain rfl : j = ix2 (0 : Fin 1) (0 : Fin 1) := by
    funext a
    apply Fin.ext
    match a with
    | ⟨0, _⟩ => have h : (j 0).val < 1 := (j 0).isLt; show (j 0).val = 0; omega
    | ⟨1, _⟩ => have h : (j 1).val < 1 := (j 1).isLt; show (j 1).val = 0; omega
  unfold blockTotal
  have hc : ∀ x : FVec Ideal S1 .f32, shapeCast S1x1 x shapeCasts_S1_S1x1 (ix2 (0 : Fin 1) (0 : Fin 1)) = x (ix1 (0 : Fin 1)) :=
    fun x => shapeCast_vec_col_apply x shapeCasts_S1_S1x1 0 0
  rw [hc]
  refine (Ideal.multiReduction_add_single _ 0x00000000#32 reduces_S4096x1_S1 (.inl rfl) rfl (ix1 (0 : Fin 1))).trans ?_
  show ∑ r : Fin 4096, _ = _
  refine Finset.sum_congr rfl fun r _ => ?_
  have hl : reduces_S4096x1_S1.lift (ix1 (0 : Fin 1)) r = ix2 r (0 : Fin 1) :=
    funext fun a => Fin.ext (by match a with | ⟨0, _⟩ => rfl | ⟨1, _⟩ => rfl)
  rw [hl, shapeCast_vec_col_apply]
  refine (Ideal.multiReduction_add_single _ 0x00000000#32 reduces_S4096x2_S4096 (.inl rfl) rfl (ix1 r)).trans ?_
  show ∑ c : Fin 2, _ = _
  refine Finset.sum_congr rfl fun c _ => ?_
  have hl2 : reduces_S4096x2_S4096.lift (ix1 r) c = ix2 r c :=
    funext fun a => Fin.ext (by match a with | ⟨0, _⟩ => rfl | ⟨1, _⟩ => rfl)
  rw [hl2]

/-! ## The payload's value -/

/-- The clamped latitude cell of a block's row is `latCell` of the row's first coordinate. -/
theorem pay6_apply (x0 : Vec Ideal S4096x2 .f32) (r : Fin 4096) :
    clampCell (k0_pay6 (F := Ideal) x0 (ix1 r)) = latCell (x0 (ix2 r (0 : Fin 2))) := by
  have e : shapeCast S4096 (extractStridedSlice S4096x1 ![0, 0] x0 slices_S4096x2_o0_0_S4096x1) shapeCasts_S4096x1_S4096 (ix1 r)
      = x0 (ix2 r (0 : Fin 2)) :=
    (shapeCast_col_vec_apply _ shapeCasts_S4096x1_S4096 r).trans
      (slice_col_apply x0 0 ![0, 0] rfl rfl slices_S4096x2_o0_0_S4096x1 r 0)
  unfold k0_pay6 latCell
  show clampCell (IntOp.addi (Ideal.fptosi 32 (Ideal.liftRound Int.floor (Ideal.div
    (shapeCast S4096 (extractStridedSlice S4096x1 ![0, 0] x0 slices_S4096x2_o0_0_S4096x1) shapeCasts_S4096x1_S4096 (ix1 r)
      * Ideal.ofBits .f32 0x43340000#32 - Ideal.ofBits .f32 0x42B40000#32) (Ideal.ofBits .f32 0x3F666666#32)))) 100#32) = _
  rw [e]

/-- The clamped longitude cell of a block's row is `lonCell` of the row's second coordinate. -/
theorem pay7_apply (x0 : Vec Ideal S4096x2 .f32) (r : Fin 4096) :
    clampCell (k0_pay7 (F := Ideal) x0 (ix1 r)) = lonCell (x0 (ix2 r (1 : Fin 2))) := by
  have e : shapeCast S4096 (extractStridedSlice S4096x1 ![0, 1] x0 slices_S4096x2_o0_1_S4096x1) shapeCasts_S4096x1_S4096 (ix1 r)
      = x0 (ix2 r (1 : Fin 2)) :=
    (shapeCast_col_vec_apply _ shapeCasts_S4096x1_S4096 r).trans
      (slice_col_apply x0 1 ![0, 1] rfl rfl slices_S4096x2_o0_1_S4096x1 r 0)
  unfold k0_pay7 lonCell
  show clampCell (IntOp.addi (Ideal.fptosi 32 (Ideal.liftRound Int.floor (Ideal.div
    (shapeCast S4096 (extractStridedSlice S4096x1 ![0, 1] x0 slices_S4096x2_o0_1_S4096x1) shapeCasts_S4096x1_S4096 (ix1 r)
      * Ideal.ofBits .f32 0x43B40000#32 - Ideal.ofBits .f32 0x43340000#32) (Ideal.ofBits .f32 0x3FE66666#32)))) 100#32) = _
  rw [e]

/-- A table entry at two equal pairs of words. -/
theorem entry_congr (W : (⟨2, ![201, 201]⟩ : Shape).Idx → EReal) {a a' b b' : BitVec 32} (ha : a = a') (hb : b = b')
    (pa : a.toNat < 201) (pb : b.toNat < 201) (pa' : a'.toNat < 201) (pb' : b'.toNat < 201) :
    W (ix2 (⟨a.toNat, pa⟩ : Fin 201) (⟨b.toNat, pb⟩ : Fin 201)) = W (ix2 (⟨a'.toNat, pa'⟩ : Fin 201) (⟨b'.toNat, pb'⟩ : Fin 201)) := by
  subst ha hb; rfl

/-- The loss of one block of 4096 rows: every row's two terms at the row's weight. -/
def blockLoss (x0 x1 : Vec Ideal S4096x2 .f32) (x2 : Vec Ideal S201x201 .f32) : EReal :=
  ∑ r : Fin 4096, ∑ c : Fin 2,
    lossTerm (x0 (ix2 r c)) (x1 (ix2 r c)) (weightAt x2 (x0 (ix2 r (0 : Fin 2))) (x0 (ix2 r (1 : Fin 2))))

/-- The stored value is the running total plus the block's loss. -/
theorem pay_value (x0 x1 : Vec Ideal S4096x2 .f32) (x2 : Vec Ideal S201x201 .f32) (xo : Vec Ideal S1x1x1 .f32)
    (j : S1x1x1.Idx) :
    k0_pay1 (F := Ideal) (k0_pay3 x2) k0_pay4 (k0_pay5 x0 x1) (k0_pay6 x0) (k0_pay7 x0) 0#32 200#32 xo j
      = xo j + blockLoss x0 x1 x2 := by
  obtain rfl : j = ix3 (0 : Fin 1) (0 : Fin 1) (0 : Fin 1) := by
    funext a
    apply Fin.ext
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega
  rw [pay1_eq]
  have h1 : shapeCast S1x1x1 xo shapeCasts_S1x1x1_S1x1x1 = xo := shapeCast_self xo _
  have h2 : ∀ y : FVec Ideal S1x1 .f32, shapeCast S1x1x1 y shapeCasts_S1x1_S1x1x1 (ix3 (0 : Fin 1) (0 : Fin 1) (0 : Fin 1))
      = y (ix2 (0 : Fin 1) (0 : Fin 1)) := fun y =>
    shapeCast_apply y shapeCasts_S1x1_S1x1x1 _ _ (by rw [Shape.rowMajor_val_two, Shape.rowMajor_val_three]; rfl)
  show shapeCast S1x1x1 xo shapeCasts_S1x1x1_S1x1x1 (ix3 (0 : Fin 1) (0 : Fin 1) (0 : Fin 1))
    + shapeCast S1x1x1 (addf k0_pay4 (blockTotal (weighted (k0_pay5 x0 x1) (weightVec (k0_pay6 x0) (k0_pay7 x0) (k0_pay3 x2)))))
        shapeCasts_S1x1_S1x1x1 (ix3 (0 : Fin 1) (0 : Fin 1) (0 : Fin 1)) = _
  rw [h1, h2]
  show xo _ + (Ideal.ofBits .f32 0x00000000#32 + blockTotal _ (ix2 (0 : Fin 1) (0 : Fin 1))) = _
  rw [Ideal.ofBits_zero_f32, zero_add, blockTotal_apply]
  congr 1
  unfold blockLoss
  refine Finset.sum_congr rfl fun r _ => Finset.sum_congr rfl fun c _ => ?_
  rw [weighted_apply, weightVec_apply]
  show max (x0 (ix2 r c) - x1 (ix2 r c)) (-(x0 (ix2 r c) - x1 (ix2 r c)))
    + max (x0 (ix2 r c) - x1 (ix2 r c)) (-(x0 (ix2 r c) - x1 (ix2 r c)))
      * (Ideal.ofBits .f32 0x3DCCCCCD#32 - Ideal.ofBits .f32 0x3DCCCCCD#32 * x2 _) = _
  unfold lossTerm weightAt
  rw [entry_congr x2 (pay6_apply x0 r) (pay7_apply x0 r)]

end Cert.KernelIdeal.Block

end
-- ==== Proof.LibRangeSum.lean ====
/-
  A sum over the first `a · b` natural numbers taken `b` at a time, in any commutative additive monoid:
  `∑_{i < a·b} f i = ∑_{k < a} ∑_{j < b} f (k·b + j)`. Only associativity and commutativity of addition are used, so it
  holds on the extended reals with no finiteness assumption.
-/
import Mathlib.Algebra.BigOperators.Intervals
import Mathlib.Algebra.BigOperators.Fin

namespace Cert.GridLoss

theorem sum_range_mul {M : Type*} [AddCommMonoid M] (f : ℕ → M) (a b : ℕ) :
    ∑ i ∈ Finset.range (a * b), f i = ∑ k ∈ Finset.range a, ∑ j ∈ Finset.range b, f (k * b + j) := by
  induction a with
  | zero => simp
  | succ a ih => rw [Nat.succ_mul, Finset.sum_range_add, ih, Finset.sum_range_succ]

/-- A sum over `Fin n` of a function of the value is the sum over `range n`. -/
theorem sum_fin_eq_range {M : Type*} [AddCommMonoid M] (n : ℕ) (f : ℕ → M) :
    ∑ i : Fin n, f i.val = ∑ i ∈ Finset.range n, f i := (Finset.sum_range f).symm

end Cert.GridLoss
-- ==== Proof.KernelValue.lean ====
/-
  The kernel's result, read off its run.

  The grid has 2 × 1024 points; point `t` holds rows `4096 t … 4096 t + 4095` of the predictions and labels and the whole
  table, and the output block of half `t / 1024`. The body adds the block's loss to the running total of its half, which
  starts from zero at the first point of the half, so after point `t` the staging buffer holds the sum of the block
  losses of the points of `t`'s half up to `t` (by induction on the point). Each half's total is written back once, after
  its last point, and the two written blocks are the whole output array. The host then adds the two halves and divides
  by 2²⁴.
-/
import proofs.«181261_j69810398429186_2_alg».proof.Proof.KernelPieces
import proofs.«181261_j69810398429186_2_alg».proof.Proof.KernelPayload
import proofs.«181261_j69810398429186_2_alg».proof.Proof.LibRangeSum
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Block Cert.KernelIdeal.Pieces Cert.GridLoss
open Idealize.ShloMosaic.ValueIdx

variable (m : (ℓ : Loc nD τ sig) → Buf (Elt Ideal) ℓ) (ρ : Dev nD → PrngReg)

/-! ## The blocks, read from the argument arrays -/

/-- The printed index maps over the grid: the two row windows are at block `t`, the table at block `(0, 0)`, the output at
    the half `t / 1024`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 1024 ∧ win0_3.index t (1 : Fin 3) = 0 ∧ win0_3.index t (2 : Fin 3) = 0 :=
  (by decide +kernel : ∀ t : Fin grid0.N, _)

/-- Row `r` of the prediction block at point `t` is row `4096 t + r` of the predictions. -/
theorem iblk0_apply (c : Dev nD) (t : Fin cfg0.N) (r : Fin 4096) (col : Fin 2) (hr : t.val * 4096 + r.val < 8388608) :
    (iblk m c 0 t : Vec Ideal S4096x2 .f32) (ix2 r col)
      = m ((c : Thread nD τ).loc main_arg0) (ix2 (⟨t.val * 4096 + r.val, hr⟩ : Fin 8388608) col) := by
  show m ((c : Thread nD τ).loc main_arg0) (((cfg0.win 0).blk t).view.emb (ix2 r col)) = _
  congr 1
  funext a
  apply Fin.ext
  match a with
  | ⟨0, _⟩ => show win0_0.index t (0 : Fin 2) * 4096 + 1 * r.val = t.val * 4096 + r.val; rw [(idx_facts t).1]; omega
  | ⟨1, _⟩ => show win0_0.index t (1 : Fin 2) * 2 + 1 * col.val = col.val; rw [(idx_facts t).2.1]; omega

/-- The same for the labels. -/
theorem iblk1_apply (c : Dev nD) (t : Fin cfg0.N) (r : Fin 4096) (col : Fin 2) (hr : t.val * 4096 + r.val < 8388608) :
    (iblk m c 1 t : Vec Ideal S4096x2 .f32) (ix2 r col)
      = m ((c : Thread nD τ).loc main_arg1) (ix2 (⟨t.val * 4096 + r.val, hr⟩ : Fin 8388608) col) := by
  show m ((c : Thread nD τ).loc main_arg1) (((cfg0.win 1).blk t).view.emb (ix2 r col)) = _
  congr 1
  funext a
  apply Fin.ext
  match a with
  | ⟨0, _⟩ => show win0_1.index t (0 : Fin 2) * 4096 + 1 * r.val = t.val * 4096 + r.val; rw [(idx_facts t).2.2.1]; omega
  | ⟨1, _⟩ => show win0_1.index t (1 : Fin 2) * 2 + 1 * col.val = col.val; rw [(idx_facts t).2.2.2.1]; omega

/-- The table's block at every point is the whole table. -/
theorem iblk2_eq (c : Dev nD) (t : Fin cfg0.N) :
    (iblk m c 2 t : Vec Ideal S201x201 .f32) = m ((c : Thread nD τ).loc main_arg2) := by
  funext j
  show m ((c : Thread nD τ).loc main_arg2) (((cfg0.win 2).blk t).view.emb j) = _
  congr 1
  funext a
  apply Fin.ext
  match a with
  | ⟨0, _⟩ => show win0_2.index t (0 : Fin 2) * 201 + 1 * (j 0).val = (j 0).val; rw [(idx_facts t).2.2.2.2.1]; omega
  | ⟨1, _⟩ => show win0_2.index t (1 : Fin 2) * 201 + 1 * (j 1).val = (j 1).val; rw [(idx_facts t).2.2.2.2.2.1]; omega

/-- The loss of the block at point `n` (zero past the grid). -/
def pointLoss (c : Dev nD) (n : ℕ) : EReal :=
  if h : n < cfg0.N then blockLoss (iblk m c 0 ⟨n, h⟩) (iblk m c 1 ⟨n, h⟩) (iblk m c 2 ⟨n, h⟩) else 0

/-- The block at point `t` holds rows `4096 t … 4096 t + 4095`: its loss is the sum of those rows' losses. -/
theorem blockLoss_rows (c : Dev nD) (t : Fin cfg0.N) :
    blockLoss (iblk m c 0 t) (iblk m c 1 t) (iblk m c 2 t)
      = ∑ r ∈ Finset.range 4096, rowLossN (m ((c : Thread nD τ).loc main_arg0)) (m ((c : Thread nD τ).loc main_arg1))
          (m ((c : Thread nD τ).loc main_arg2)) (t.val * 4096 + r) := by
  have hN : t.val < 2048 := lt_of_lt_of_eq t.isLt N_0
  rw [← sum_fin_eq_range 4096 (fun r => rowLossN (m ((c : Thread nD τ).loc main_arg0)) (m ((c : Thread nD τ).loc main_arg1))
    (m ((c : Thread nD τ).loc main_arg2)) (t.val * 4096 + r))]
  unfold blockLoss
  refine Finset.sum_congr rfl fun r _ => ?_
  have hr : t.val * 4096 + r.val < 8388608 := by have := r.isLt; omega
  unfold rowLossN
  rw [dif_pos hr]
  unfold rowLoss
  refine Finset.sum_congr rfl fun col _ => ?_
  rw [iblk0_apply m c t r col hr, iblk1_apply m c t r col hr, iblk0_apply m c t r 0 hr, iblk0_apply m c t r 1 hr,
    iblk2_eq m c t]

/-! ## The running total -/

/-- At the first point of a half the buffer is left at the block's loss. -/
theorem step_A (c : Dev nD) (t : Fin cfg0.N) (h0 : t.val % 1024 = 0) (j : S1x1x1.Idx) :
    outsAt0 m c t.val t.isLt j = blockLoss (iblk m c 0 t) (iblk m c 1 t) (iblk m c 2 t) := by
  refine (congrFun (outsAt0_A m c t h0) j).trans ?_
  refine (congrFun (out_A (F := Ideal) c (grid0.coords t) (ms0_0 t) (hs0_0 t) (ms0_1 t) (hs0_1 t) (ms0_2 t) (hs0_2 t)
    (ms0_3 t) (hs0_3 t) ((hcond0_0 t).mpr h0) (iblk m c 0 t) (iblk m c 1 t) (iblk m c 2 t)) j).trans ?_
  refine (pay_value (iblk m c 0 t) (iblk m c 1 t) (iblk m c 2 t) (k0_pay2 (F := Ideal)) j).trans ?_
  show Ideal.ofBits .f32 0x00000000#32 + _ = _
  rw [Ideal.ofBits_zero_f32, zero_add]

/-- At a later point the block's loss is added to what the point before left. -/
theorem step_B (c : Dev nD) (t : Fin cfg0.N) (h0 : ¬t.val % 1024 = 0) (j : S1x1x1.Idx) :
    outsAt0 m c t.val t.isLt j
      = outsAt0 m c (t.val - 1) (Nat.lt_of_le_of_lt (Nat.sub_le _ _) t.isLt) j
        + blockLoss (iblk m c 0 t) (iblk m c 1 t) (iblk m c 2 t) := by
  refine (congrFun (outsAt0_B m c t h0) j).trans ?_
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (iblk m c 0 t) (iblk m c 1 t) (iblk m c 2 t)
    (outsAt0 m c (t.val - 1) (Nat.lt_of_le_of_lt (Nat.sub_le _ _) t.isLt))) j).trans ?_
  exact pay_value (iblk m c 0 t) (iblk m c 1 t) (iblk m c 2 t) _ j

/-- After point `n` the buffer holds the block losses of the points of `n`'s half up to `n`. -/
theorem outsAt_eq (c : Dev nD) (j : S1x1x1.Idx) : ∀ (n : ℕ) (h : n < cfg0.N),
    outsAt0 m c n h j = ∑ s ∈ Finset.range (n % 1024 + 1), pointLoss m c (n - n % 1024 + s) := by
  intro n
  induction n with
  | zero =>
    intro h
    refine (step_A m c ⟨0, h⟩ rfl j).trans ?_
    show _ = ∑ s ∈ Finset.range 1, pointLoss m c (0 + s)
    rw [Finset.sum_range_one]
    unfold pointLoss
    rw [dif_pos h]
  | succ n ih =>
    intro h
    have hlt : n < cfg0.N := Nat.lt_of_succ_lt h
    by_cases h0 : (n + 1) % 1024 = 0
    · refine (step_A m c ⟨n + 1, h⟩ h0 j).trans ?_
      have hs : ∑ s ∈ Finset.range ((n + 1) % 1024 + 1), pointLoss m c (n + 1 - (n + 1) % 1024 + s) = pointLoss m c (n + 1) := by
        rw [h0]; exact Finset.sum_range_one _
      rw [hs]
      unfold pointLoss
      rw [dif_pos h]
    · refine (step_B m c ⟨n + 1, h⟩ h0 j).trans ?_
      have e : outsAt0 m c ((⟨n + 1, h⟩ : Fin cfg0.N).val - 1)
          (Nat.lt_of_le_of_lt (Nat.sub_le _ _) (⟨n + 1, h⟩ : Fin cfg0.N).isLt) j = outsAt0 m c n hlt j := rfl
      rw [e, ih hlt]
      have k1 : n % 1024 + 1 = (n + 1) % 1024 := by omega
      have k2 : n - n % 1024 = n + 1 - (n + 1) % 1024 := by omega
      have k3 : n + 1 - (n + 1) % 1024 + (n + 1) % 1024 = n + 1 := by omega
      rw [k1, k2, Finset.sum_range_succ (fun s => pointLoss m c (n + 1 - (n + 1) % 1024 + s)) ((n + 1) % 1024), k3]
      congr 1
      unfold pointLoss
      rw [dif_pos h]

/-! ## The output array -/

/-- The total of half `p`: the block losses of its 1024 points. -/
def halfSum (c : Dev nD) (p : ℕ) : EReal := ∑ s ∈ Finset.range 1024, pointLoss m c (p * 1024 + s)

/-- The two halves' totals, as contents of the output array `[2, 1, 1]`. -/
def halfTotals (c : Dev nD) : S2x1x1.Idx → EReal := fun i => halfSum m c (i 0).val

/-- What the last point of a half writes back is that half's block of `halfTotals`. -/
theorem flushed_eq (c : Dev nD) (t : Fin cfg0.N) (hf : (cfg0.win 3).flush t = true) :
    (dats m 0 c).flushed 3 t = ((cfg0.win 3).blk t).view.read (Elt Ideal) (halfTotals m c) := by
  have ht : t.val % 1024 = 1023 := (flush0_3 t).mp hf
  have hN : t.val < 2048 := lt_of_lt_of_eq t.isLt N_0
  show (cfg0.win 3).cut (grid0.coords t) ((dats m 0 c).after 3 t) = _
  rw [after0_3]
  funext y
  show outsAt0 m c t.val t.isLt y = halfTotals m c (((cfg0.win 3).blk t).view.emb y)
  rw [outsAt_eq m c y t.val t.isLt, ht]
  unfold halfTotals halfSum
  have e0 : ((((cfg0.win 3).blk t).view.emb y) 0).val = t.val / 1024 := by
    show win0_3.index t (0 : Fin 3) * 1 + 1 * (y 0).val = _
    have hy : (y 0).val < 1 := (y 0).isLt
    rw [(idx_facts t).2.2.2.2.2.2.1]; omega
  rw [e0]
  have e1 : t.val - 1023 = t.val / 1024 * 1024 := by omega
  rw [e1]

/-- An index of the output array is in point `t`'s block iff each coordinate is in the block's range. -/
theorem mem_blk (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v0).slice (win0_3.rect t)).set ↔ _
  rw [View.set_slice_whole, Rect.mem_set_unit]
  exact Iff.rfl

/-- Every entry of the output array is in the block of its half's last point. -/
theorem cover (i : S2x1x1.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hN : cfg0.N = 2048 := N_0
  obtain ⟨t, htv⟩ : ∃ t : Fin cfg0.N, t.val = (i 0).val * 1024 + 1023 := ⟨⟨(i 0).val * 1024 + 1023, by rw [hN]; omega⟩, rfl⟩
  refine ⟨t, (flush0_3 t).mpr (by omega), ?_⟩
  rw [mem_blk]
  obtain ⟨-, -, -, -, -, -, e0, e1, e2⟩ := idx_facts t
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 1 ≤ (i 2).val ∧ (i 2).val < win0_3.index t (2 : Fin 3) * 1 + 1
    rw [e2]; omega

/-- The output array ends holding the two halves' totals. -/
theorem final (c : Dev nD) : (dats m 0 c).arrAt 3 cfg0.N = halfTotals m c :=
  (dats m 0 c).arrAt_eq_of_cover 3 (halfTotals m c) (flushed_eq m c) cover

/-! ## The host operations after the region -/

/-- The kernel's result: the two halves added and divided, by the host, by 2²⁴. -/
def result (c : Dev nD) : S_.Idx → EReal :=
  fun _ => Ideal.div (halfSum m c 0 + halfSum m c 1) (Ideal.ofBits .f32 0x4B800000#32)

theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.tc.devRef main_v0)
      = halfTotals m c :=
    (Pipeline.withArrays_arr spec0 launch0.win.arr_inj c _ _ 3).trans (final m c)
  rw [hw]
  funext i
  have hk : ∀ k : S1x1x1.Idx, (k 0).val = 0 := fun k => by have h : (k 0).val < 1 := (k 0).isLt; omega
  show Ideal.div (halfSum m c (0 + ((Shape.reshapeEquiv shapeCasts_S1x1x1_S_ i) 0).val)
    + halfSum m c (1 + ((Shape.reshapeEquiv shapeCasts_S1x1x1_S_ i) 0).val)) (Ideal.ofBits .f32 0x4B800000#32) = _
  rw [hk]
  rfl

/-! ## The result as one sum over all rows -/

/-- A point's block loss is the sum of its 4096 rows' losses. -/
theorem pointLoss_rows (c : Dev nD) (n : ℕ) (h : n < 2048) :
    pointLoss m c n = ∑ r ∈ Finset.range 4096, rowLossN (m ((c : Thread nD τ).loc main_arg0)) (m ((c : Thread nD τ).loc main_arg1))
      (m ((c : Thread nD τ).loc main_arg2)) (n * 4096 + r) := by
  have hN : cfg0.N = 2048 := N_0
  have hn : n < cfg0.N := by rw [hN]; exact h
  unfold pointLoss
  rw [dif_pos hn]
  exact blockLoss_rows m c ⟨n, hn⟩

/-- The two halves together are every row once: `2 · 1024 · 4096 = 8388608` rows, taken block by block. -/
theorem halves_sum (c : Dev nD) :
    halfSum m c 0 + halfSum m c 1
      = ∑ R : Fin 8388608, rowLoss (m ((c : Thread nD τ).loc main_arg0)) (m ((c : Thread nD τ).loc main_arg1))
          (m ((c : Thread nD τ).loc main_arg2)) R := by
  have hR : ∑ R : Fin 8388608, rowLoss (m ((c : Thread nD τ).loc main_arg0)) (m ((c : Thread nD τ).loc main_arg1))
        (m ((c : Thread nD τ).loc main_arg2)) R
      = ∑ n ∈ Finset.range (2 * (1024 * 4096)), rowLossN (m ((c : Thread nD τ).loc main_arg0)) (m ((c : Thread nD τ).loc main_arg1))
        (m ((c : Thread nD τ).loc main_arg2)) n := by
    rw [show Finset.range (2 * (1024 * 4096)) = Finset.range 8388608 from rfl, ← sum_fin_eq_range]
    refine Finset.sum_congr rfl fun R _ => ?_
    unfold rowLossN
    rw [dif_pos R.isLt]
  rw [hR, sum_range_mul, Finset.sum_range_succ, Finset.sum_range_one, sum_range_mul, sum_range_mul]
  unfold halfSum
  refine congrArg₂ (· + ·) ?_ ?_
  · refine Finset.sum_congr rfl fun s hs => ?_
    have := Finset.mem_range.mp hs
    rw [pointLoss_rows m c (0 * 1024 + s) (by omega)]
    refine Finset.sum_congr rfl fun r _ => congrArg _ ?_
    omega
  · refine Finset.sum_congr rfl fun s hs => ?_
    have := Finset.mem_range.mp hs
    rw [pointLoss_rows m c (1 * 1024 + s) (by omega)]
    refine Finset.sum_congr rfl fun r _ => congrArg _ ?_
    omega

/-- The kernel's result is the host's quotient by 2²⁴ of the sum of every row's loss. -/
theorem result_rows (c : Dev nD) (i : S_.Idx) :
    result m c i = Ideal.div (Ideal.ofBits .f32 0x00000000#32
      + ∑ R : Fin 8388608, rowLoss (m ((c : Thread nD τ).loc main_arg0)) (m ((c : Thread nD τ).loc main_arg1))
          (m ((c : Thread nD τ).loc main_arg2)) R) (Ideal.ofBits .f32 0x4B800000#32) := by
  unfold result
  rw [halves_sum, Ideal.ofBits_zero_f32, zero_add]

/-! ## The run, read -/

/-- Every weakly fair execution of the program terminates with the result at `result` and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v6 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Total

end
-- ==== Proof.RefLine.lean ====
/-
  The reference's run, read back in five stretches.

  The reference is one straight line of 82 host operations. Its last value depends on the clamped latitude cells three
  times and on the clamped longitude cells three times (the "add 201 if negative" step reads its operand as the compared
  value, as the shifted value and as the kept value), so the line is read back in five consecutive stretches, cut where a
  value is used again: up to the clamped latitude cells; the longitude clamp; the latitude wrap-around; the longitude
  wrap-around; and the tail (join the two index columns, gather, weight the errors, sum, divide). Each stretch is short
  and is read as a function of the buffers it starts from; a buffer a stretch does not write is carried through it
  unchanged; and the contents after a concatenation of stretches is the last stretch's function of what the earlier ones
  left. The operation list is the printed program's, operation by operation, the two calls of the clamp function inlined
  over their call records.
-/
import proofs.«181261_j69810398429186_2_alg».proof.Proof.Gen.ReferenceIdeal
import Idealize.ShloMosaic.Lib.StableHlo.Run
import Idealize.ShloMosaic.Lib.Pipeline.Frame

noncomputable section

namespace Cert.ReferenceIdeal.Line

open Cert.ReferenceIdeal Cert.ReferenceIdeal.Gen
open Idealize.ShloMosaic Idealize.ShloMosaic.TcCoe Idealize.SL.Sem Idealize.ShloMosaic.StableHlo

variable {F : FTy → Type} [FloatOps F]

/-! ## The five stretches -/

/-- Up to the clamped latitude cells: the absolute errors, both raw cell indices, the latitude clamp. -/
abbrev opsA : List (HloOp τ sig (Elt F)) :=
  [ binary main_arg0 main_arg1 main_v0 (subf : (⟨S8388608x2, .f32⟩ : BufTy).Contents (Elt F) → (⟨S8388608x2, .f32⟩ : BufTy).Contents (Elt F) → (⟨S8388608x2, .f32⟩ : BufTy).Contents (Elt F)),
    unary main_v0 main_v1 (Host.absf : (⟨S8388608x2, .f32⟩ : BufTy).Contents (Elt F) → (⟨S8388608x2, .f32⟩ : BufTy).Contents (Elt F)),
    unary main_arg0 main_v2 ((extractStridedSlice S8388608x1 ![0, 0] · slices_S8388608x2_S8388608x1_0_0) : (⟨S8388608x2, .f32⟩ : BufTy).Contents (Elt F) → (⟨S8388608x1, .f32⟩ : BufTy).Contents (Elt F)),
    reshape main_v2 main_v3 rfl shapeCasts_S8388608x1_S8388608,
    nullary main_cst (constant S_ .f32 0x43340000#32),
    unary main_cst main_v4 (broadcastInDim S8388608 ![] bcast_S_S8388608 : (⟨S_, .f32⟩ : BufTy).Contents (Elt F) → (⟨S8388608, .f32⟩ : BufTy).Contents (Elt F)),
    binary main_v3 main_v4 main_v5 (mulf : (⟨S8388608, .f32⟩ : BufTy).Contents (Elt F) → (⟨S8388608, .f32⟩ : BufTy).Contents (Elt F) → (⟨S8388608, .f32⟩ : BufTy).Contents (Elt F)),
    nullary main_cst_0 (constant S_ .f32 0x42B40000#32),
    unary main_cst_0 main_v6 (broadcastInDim S8388608 ![] bcast_S_S8388608 : (⟨S_, .f32⟩ : BufTy).Contents (Elt F) → (⟨S8388608, .f32⟩ : BufTy).Contents (Elt F)),
    binary main_v5 main_v6 main_v7 (subf : (⟨S8388608, .f32⟩ : BufTy).Contents (Elt F) → (⟨S8388608, .f32⟩ : BufTy).Contents (Elt F) → (⟨S8388608, .f32⟩ : BufTy).Contents (Elt F)),
    unary main_arg0 main_v8 ((extractStridedSlice S8388608x1 ![0, 1] · slices_S8388608x2_S8388608x1_0_1) : (⟨S8388608x2, .f32⟩ : BufTy).Contents (Elt F) → (⟨S8388608x1, .f32⟩ : BufTy).Contents (Elt F)),
    reshape main_v8 main_v9 rfl shapeCasts_S8388608x1_S8388608,
    nullary main_cst_1 (constant S_ .f32 0x43B40000#32),
    unary main_cst_1 main_v10 (broadcastInDim S8388608 ![] bcast_S_S8388608 : (⟨S_, .f32⟩ : BufTy).Contents (Elt F) → (⟨S8388608, .f32⟩ : BufTy).Contents (Elt F)),
    binary main_v9 main_v10 main_v11 (mulf : (⟨S8388608, .f32⟩ : BufTy).Contents (Elt F) → (⟨S8388608, .f32⟩ : BufTy).Contents (Elt F) → (⟨S8388608, .f32⟩ : BufTy).Contents (Elt F)),
    nullary main_cst_2 (constant S_ .f32 0x43340000#32),
    unary main_cst_2 main_v12 (broadcastInDim S8388608 ![] bcast_S_S8388608 : (⟨S_, .f32⟩ : BufTy).Contents (Elt F) → (⟨S8388608, .f32⟩ : BufTy).Contents (Elt F)),
    binary main_v11 main_v12 main_v13 (subf : (⟨S8388608, .f32⟩ : BufTy).Contents (Elt F) → (⟨S8388608, .f32⟩ : BufTy).Contents (Elt F) → (⟨S8388608, .f32⟩ : BufTy).Contents (Elt F)),
    nullary main_cst_3 (constant S_ .f32 0x3F666666#32),
    unary main_cst_3 main_v14 (broadcastInDim S8388608 ![] bcast_S_S8388608 : (⟨S_, .f32⟩ : BufTy).Contents (Elt F) → (⟨S8388608, .f32⟩ : BufTy).Contents (Elt F)),
    binary main_v7 main_v14 main_v15 (Host.divf : (⟨S8388608, .f32⟩ : BufTy).Contents (Elt F) → (⟨S8388608, .f32⟩ : BufTy).Contents (Elt F) → (⟨S8388608, .f32⟩ : BufTy).Contents (Elt F)),
    unary main_v15 main_v16 (Host.floor : (⟨S8388608, .f32⟩ : BufTy).Contents (Elt F) → (⟨S8388608, .f32⟩ : BufTy).Contents (Elt F)),
    unary main_v16 main_v17 (fptosi 32 : (⟨S8388608, .f32⟩ : BufTy).Contents (Elt F) → (⟨S8388608, .i32⟩ : BufTy).Contents (Elt F)),
    nullary main_c (constantI S_ 32 100#32),
    unary main_c main_v18 (broadcastInDim S8388608 ![] bcast_S_S8388608 : (⟨S_, .i32⟩ : BufTy).Contents (Elt F) → (⟨S8388608, .i32⟩ : BufTy).Contents (Elt F)),
    binary main_v17 main_v18 main_v19 (addi : (⟨S8388608, .i32⟩ : BufTy).Contents (Elt F) → (⟨S8388608, .i32⟩ : BufTy).Contents (Elt F) → (⟨S8388608, .i32⟩ : BufTy).Contents (Elt F)),
    nullary main_cst_4 (constant S_ .f32 0x3FE66666#32),
    unary main_cst_4 main_v20 (broadcastInDim S8388608 ![] bcast_S_S8388608 : (⟨S_, .f32⟩ : BufTy).Contents (Elt F) → (⟨S8388608, .f32⟩ : BufTy).Contents (Elt F)),
    binary main_v13 main_v20 main_v21 (Host.divf : (⟨S8388608, .f32⟩ : BufTy).Contents (Elt F) → (⟨S8388608, .f32⟩ : BufTy).Contents (Elt F) → (⟨S8388608, .f32⟩ : BufTy).Contents (Elt F)),
    unary main_v21 main_v22 (Host.floor : (⟨S8388608, .f32⟩ : BufTy).Contents (Elt F) → (⟨S8388608, .f32⟩ : BufTy).Contents (Elt F)),
    unary main_v22 main_v23 (fptosi 32 : (⟨S8388608, .f32⟩ : BufTy).Contents (Elt F) → (⟨S8388608, .i32⟩ : BufTy).Contents (Elt F)),
    nullary main_c_5 (constantI S_ 32 100#32),
    unary main_c_5 main_v24 (broadcastInDim S8388608 ![] bcast_S_S8388608 : (⟨S_, .i32⟩ : BufTy).Contents (Elt F) → (⟨S8388608, .i32⟩ : BufTy).Contents (Elt F)),
    binary main_v23 main_v24 main_v25 (addi : (⟨S8388608, .i32⟩ : BufTy).Contents (Elt F) → (⟨S8388608, .i32⟩ : BufTy).Contents (Elt F) → (⟨S8388608, .i32⟩ : BufTy).Contents (Elt F)),
    nullary main_c_6 (constantI S_ 32 0#32),
    nullary main_c_7 (constantI S_ 32 200#32),
    TRef.unary (TRef.of (T := ⟨S_, .i32⟩) main_c_6) (TRef.of (T := ⟨S_, .i32⟩) main_call0_v0) id,
    TRef.unary (TRef.of (T := ⟨S_, .i32⟩) main_call0_v0) (TRef.of (T := ⟨S8388608, .i32⟩) main_call0_v1) (broadcastInDim S8388608 ![] bcast_S_S8388608),
    TRef.binary (TRef.of (T := ⟨S8388608, .i32⟩) main_call0_v1) (TRef.of (T := ⟨S8388608, .i32⟩) main_v19) (TRef.of (T := ⟨S8388608, .i32⟩) main_call0_v2) maxsi,
    TRef.unary (TRef.of (T := ⟨S_, .i32⟩) main_c_7) (TRef.of (T := ⟨S_, .i32⟩) main_call0_v3) id,
    TRef.unary (TRef.of (T := ⟨S_, .i32⟩) main_call0_v3) (TRef.of (T := ⟨S8388608, .i32⟩) main_call0_v4) (broadcastInDim S8388608 ![] bcast_S_S8388608),
    TRef.binary (TRef.of (T := ⟨S8388608, .i32⟩) main_call0_v4) (TRef.of (T := ⟨S8388608, .i32⟩) main_call0_v2) (TRef.of (T := ⟨S8388608, .i32⟩) main_v26) minsi ]

/-- The longitude clamp. -/
abbrev opsB : List (HloOp τ sig (Elt F)) :=
  [ nullary main_c_8 (constantI S_ 32 0#32),
    nullary main_c_9 (constantI S_ 32 200#32),
    TRef.unary (TRef.of (T := ⟨S_, .i32⟩) main_c_8) (TRef.of (T := ⟨S_, .i32⟩) main_call1_v0) id,
    TRef.unary (TRef.of (T := ⟨S_, .i32⟩) main_call1_v0) (TRef.of (T := ⟨S8388608, .i32⟩) main_call1_v1) (broadcastInDim S8388608 ![] bcast_S_S8388608),
    TRef.binary (TRef.of (T := ⟨S8388608, .i32⟩) main_call1_v1) (TRef.of (T := ⟨S8388608, .i32⟩) main_v25) (TRef.of (T := ⟨S8388608, .i32⟩) main_call1_v2) maxsi,
    TRef.unary (TRef.of (T := ⟨S_, .i32⟩) main_c_9) (TRef.of (T := ⟨S_, .i32⟩) main_call1_v3) id,
    TRef.unary (TRef.of (T := ⟨S_, .i32⟩) main_call1_v3) (TRef.of (T := ⟨S8388608, .i32⟩) main_call1_v4) (broadcastInDim S8388608 ![] bcast_S_S8388608),
    TRef.binary (TRef.of (T := ⟨S8388608, .i32⟩) main_call1_v4) (TRef.of (T := ⟨S8388608, .i32⟩) main_call1_v2) (TRef.of (T := ⟨S8388608, .i32⟩) main_v27) minsi ]

/-- The latitude cells: add 201 where negative. -/
abbrev opsC : List (HloOp τ sig (Elt F)) :=
  [ nullary main_c_10 (constantI S_ 32 0#32),
    unary main_c_10 main_v28 (broadcastInDim S8388608 ![] bcast_S_S8388608 : (⟨S_, .i32⟩ : BufTy).Contents (Elt F) → (⟨S8388608, .i32⟩ : BufTy).Contents (Elt F)),
    binary main_v26 main_v28 main_v29 (cmpi .slt : (⟨S8388608, .i32⟩ : BufTy).Contents (Elt F) → (⟨S8388608, .i32⟩ : BufTy).Contents (Elt F) → (⟨S8388608, .i1⟩ : BufTy).Contents (Elt F)),
    nullary main_c_11 (constantI S_ 32 201#32),
    unary main_c_11 main_v30 (broadcastInDim S8388608 ![] bcast_S_S8388608 : (⟨S_, .i32⟩ : BufTy).Contents (Elt F) → (⟨S8388608, .i32⟩ : BufTy).Contents (Elt F)),
    binary main_v26 main_v30 main_v31 (addi : (⟨S8388608, .i32⟩ : BufTy).Contents (Elt F) → (⟨S8388608, .i32⟩ : BufTy).Contents (Elt F) → (⟨S8388608, .i32⟩ : BufTy).Contents (Elt F)),
    ternary main_v29 main_v31 main_v26 main_v32 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

/-- The longitude cells: add 201 where negative. -/
abbrev opsD : List (HloOp τ sig (Elt F)) :=
  [ nullary main_c_12 (constantI S_ 32 0#32),
    unary main_c_12 main_v33 (broadcastInDim S8388608 ![] bcast_S_S8388608 : (⟨S_, .i32⟩ : BufTy).Contents (Elt F) → (⟨S8388608, .i32⟩ : BufTy).Contents (Elt F)),
    binary main_v27 main_v33 main_v34 (cmpi .slt : (⟨S8388608, .i32⟩ : BufTy).Contents (Elt F) → (⟨S8388608, .i32⟩ : BufTy).Contents (Elt F) → (⟨S8388608, .i1⟩ : BufTy).Contents (Elt F)),
    nullary main_c_13 (constantI S_ 32 201#32),
    unary main_c_13 main_v35 (broadcastInDim S8388608 ![] bcast_S_S8388608 : (⟨S_, .i32⟩ : BufTy).Contents (Elt F) → (⟨S8388608, .i32⟩ : BufTy).Contents (Elt F)),
    binary main_v27 main_v35 main_v36 (addi : (⟨S8388608, .i32⟩ : BufTy).Contents (Elt F) → (⟨S8388608, .i32⟩ : BufTy).Contents (Elt F) → (⟨S8388608, .i32⟩ : BufTy).Contents (Elt F)),
    ternary main_v34 main_v36 main_v27 main_v37 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

/-- The tail: the two index columns joined, the gather, the weighted errors, their sum, the quotient. -/
abbrev opsE : List (HloOp τ sig (Elt F)) :=
  [ unary main_v32 main_v38 (broadcastInDim S8388608x1 ![0] bcast_S8388608_S8388608x1_0 : (⟨S8388608, .i32⟩ : BufTy).Contents (Elt F) → (⟨S8388608x1, .i32⟩ : BufTy).Contents (Elt F)),
    unary main_v37 main_v39 (broadcastInDim S8388608x1 ![0] bcast_S8388608_S8388608x1_0 : (⟨S8388608, .i32⟩ : BufTy).Contents (Elt F) → (⟨S8388608x1, .i32⟩ : BufTy).Contents (Elt F)),
    binary main_v38 main_v39 main_v40 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    binary main_arg2 main_v40 main_v41 ((fun x i => Host.gather gather_S201x201_S8388608x2_S8388608_n_01_n_n_01_1_11 x i) : (⟨S201x201, .f32⟩ : BufTy).Contents (Elt F) → (⟨S8388608x2, .i32⟩ : BufTy).Contents (Elt F) → (⟨S8388608, .f32⟩ : BufTy).Contents (Elt F)),
    unary main_v41 main_v42 (broadcastInDim S8388608x1 ![0] bcast_S8388608_S8388608x1_0 : (⟨S8388608, .f32⟩ : BufTy).Contents (Elt F) → (⟨S8388608x1, .f32⟩ : BufTy).Contents (Elt F)),
    nullary main_cst_14 (constant S_ .f32 0x3DCCCCCD#32),
    unary main_cst_14 main_v43 (broadcastInDim S8388608x1 ![] bcast_S_S8388608x1 : (⟨S_, .f32⟩ : BufTy).Contents (Elt F) → (⟨S8388608x1, .f32⟩ : BufTy).Contents (Elt F)),
    binary main_v43 main_v42 main_v44 (mulf : (⟨S8388608x1, .f32⟩ : BufTy).Contents (Elt F) → (⟨S8388608x1, .f32⟩ : BufTy).Contents (Elt F) → (⟨S8388608x1, .f32⟩ : BufTy).Contents (Elt F)),
    nullary main_cst_15 (constant S_ .f32 0x3DCCCCCD#32),
    unary main_cst_15 main_v45 (broadcastInDim S8388608x1 ![] bcast_S_S8388608x1 : (⟨S_, .f32⟩ : BufTy).Contents (Elt F) → (⟨S8388608x1, .f32⟩ : BufTy).Contents (Elt F)),
    binary main_v45 main_v44 main_v46 (subf : (⟨S8388608x1, .f32⟩ : BufTy).Contents (Elt F) → (⟨S8388608x1, .f32⟩ : BufTy).Contents (Elt F) → (⟨S8388608x1, .f32⟩ : BufTy).Contents (Elt F)),
    unary main_v46 main_v47 (broadcastInDim S8388608x2 ![0, 1] bcast_S8388608x1_S8388608x2_0_1 : (⟨S8388608x1, .f32⟩ : BufTy).Contents (Elt F) → (⟨S8388608x2, .f32⟩ : BufTy).Contents (Elt F)),
    binary main_v1 main_v47 main_v48 (mulf : (⟨S8388608x2, .f32⟩ : BufTy).Contents (Elt F) → (⟨S8388608x2, .f32⟩ : BufTy).Contents (Elt F) → (⟨S8388608x2, .f32⟩ : BufTy).Contents (Elt F)),
    binary main_v1 main_v48 main_v49 (addf : (⟨S8388608x2, .f32⟩ : BufTy).Contents (Elt F) → (⟨S8388608x2, .f32⟩ : BufTy).Contents (Elt F) → (⟨S8388608x2, .f32⟩ : BufTy).Contents (Elt F)),
    nullary main_cst_16 (constant S_ .f32 0x00000000#32),
    binary main_v49 main_cst_16 main_v50 ((fun x v => Host.reduceAdd x v reducesTo_S8388608x2_S_d0_1 h_S_) : (⟨S8388608x2, .f32⟩ : BufTy).Contents (Elt F) → (⟨S_, .f32⟩ : BufTy).Contents (Elt F) → (⟨S_, .f32⟩ : BufTy).Contents (Elt F)),
    nullary main_cst_17 (constant S_ .f32 0x4B800000#32),
    binary main_v50 main_cst_17 main_v51 (Host.divf : (⟨S_, .f32⟩ : BufTy).Contents (Elt F) → (⟨S_, .f32⟩ : BufTy).Contents (Elt F) → (⟨S_, .f32⟩ : BufTy).Contents (Elt F)) ]

/-- @main's 82 operations, in order. -/
abbrev ops : List (HloOp τ sig (Elt F)) := opsA ++ (opsB ++ (opsC ++ (opsD ++ opsE)))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., binary_bufs_sub .., binary_bufs_sub .., nullary_bufs_sub .., binary_bufs_sub .., nullary_bufs_sub .., binary_bufs_sub ..⟩

/-! ## What each stretch computes -/

/-- The absolute errors. -/
def absErr (P L : (⟨S8388608x2, .f32⟩ : BufTy).Contents (Elt F)) : (⟨S8388608x2, .f32⟩ : BufTy).Contents (Elt F) := Host.absf (subf P L)

/-- The raw latitude cell indices `⌊(180 p₀ - 90) / 0.9⌋ + 100`. -/
def rawLat (P : (⟨S8388608x2, .f32⟩ : BufTy).Contents (Elt F)) : (⟨S8388608, .i32⟩ : BufTy).Contents (Elt F) :=
  addi (fptosi 32 (Host.floor (Host.divf (subf (mulf (shapeCast _ (extractStridedSlice S8388608x1 ![0, 0] P slices_S8388608x2_S8388608x1_0_0) shapeCasts_S8388608x1_S8388608)
    (broadcastInDim S8388608 ![] bcast_S_S8388608 (constant S_ .f32 0x43340000#32))) (broadcastInDim S8388608 ![] bcast_S_S8388608 (constant S_ .f32 0x42B40000#32))) (broadcastInDim S8388608 ![] bcast_S_S8388608 (constant S_ .f32 0x3F666666#32)))))
    (broadcastInDim S8388608 ![] bcast_S_S8388608 (constantI S_ 32 100#32))

/-- The raw longitude cell indices `⌊(360 p₁ - 180) / 1.8⌋ + 100`. -/
def rawLon (P : (⟨S8388608x2, .f32⟩ : BufTy).Contents (Elt F)) : (⟨S8388608, .i32⟩ : BufTy).Contents (Elt F) :=
  addi (fptosi 32 (Host.floor (Host.divf (subf (mulf (shapeCast _ (extractStridedSlice S8388608x1 ![0, 1] P slices_S8388608x2_S8388608x1_0_1) shapeCasts_S8388608x1_S8388608)
    (broadcastInDim S8388608 ![] bcast_S_S8388608 (constant S_ .f32 0x43B40000#32))) (broadcastInDim S8388608 ![] bcast_S_S8388608 (constant S_ .f32 0x43340000#32))) (broadcastInDim S8388608 ![] bcast_S_S8388608 (constant S_ .f32 0x3FE66666#32)))))
    (broadcastInDim S8388608 ![] bcast_S_S8388608 (constantI S_ 32 100#32))

/-- The clamp into `[0, 200]`. -/
def clip (x : (⟨S8388608, .i32⟩ : BufTy).Contents (Elt F)) : (⟨S8388608, .i32⟩ : BufTy).Contents (Elt F) :=
  minsi (broadcastInDim S8388608 ![] bcast_S_S8388608 (id (constantI S_ 32 200#32))) (maxsi (broadcastInDim S8388608 ![] bcast_S_S8388608 (id (constantI S_ 32 0#32))) x)

/-- Add 201 where negative. -/
def wrap (x : (⟨S8388608, .i32⟩ : BufTy).Contents (Elt F)) : (⟨S8388608, .i32⟩ : BufTy).Contents (Elt F) :=
  select (cmpi .slt x (broadcastInDim S8388608 ![] bcast_S_S8388608 (constantI S_ 32 0#32))) (addi x (broadcastInDim S8388608 ![] bcast_S_S8388608 (constantI S_ 32 201#32))) x

/-- The gathered weights of the rows at the index pairs `(a, b)`. -/
def weights (W : (⟨S201x201, .f32⟩ : BufTy).Contents (Elt F)) (a b : (⟨S8388608, .i32⟩ : BufTy).Contents (Elt F)) : (⟨S8388608, .f32⟩ : BufTy).Contents (Elt F) :=
  Host.gather gather_S201x201_S8388608x2_S8388608_n_01_n_n_01_1_11 W
    (concatenate S8388608x2 1 [⟨S8388608x1, broadcastInDim S8388608x1 ![0] bcast_S8388608_S8388608x1_0 a⟩,
      ⟨S8388608x1, broadcastInDim S8388608x1 ![0] bcast_S8388608_S8388608x1_0 b⟩] concatenates_S8388608x1_S8388608x1_S8388608x2_d1)

/-- The weighted errors `e + e · (0.1 - 0.1 · w)`. -/
def weightedErr (e : (⟨S8388608x2, .f32⟩ : BufTy).Contents (Elt F)) (w : (⟨S8388608, .f32⟩ : BufTy).Contents (Elt F)) : (⟨S8388608x2, .f32⟩ : BufTy).Contents (Elt F) :=
  addf e (mulf e (broadcastInDim S8388608x2 ![0, 1] bcast_S8388608x1_S8388608x2_0_1
    (subf (broadcastInDim S8388608x1 ![] bcast_S_S8388608x1 (constant S_ .f32 0x3DCCCCCD#32))
      (mulf (broadcastInDim S8388608x1 ![] bcast_S_S8388608x1 (constant S_ .f32 0x3DCCCCCD#32))
        (broadcastInDim S8388608x1 ![0] bcast_S8388608_S8388608x1_0 w)))))

/-- The mean: the sum from zero over both axes, divided by 2²⁴. -/
def meanOf (x : (⟨S8388608x2, .f32⟩ : BufTy).Contents (Elt F)) : (⟨S_, .f32⟩ : BufTy).Contents (Elt F) :=
  Host.divf (Host.reduceAdd x (constant S_ .f32 0x00000000#32) reducesTo_S8388608x2_S_d0_1 h_S_) (constant S_ .f32 0x4B800000#32)

/-- The reference's result as one function of its three arguments. -/
def result (P L : (⟨S8388608x2, .f32⟩ : BufTy).Contents (Elt F)) (W : (⟨S201x201, .f32⟩ : BufTy).Contents (Elt F)) : (⟨S_, .f32⟩ : BufTy).Contents (Elt F) :=
  meanOf (weightedErr (absErr P L) (weights W (wrap (clip (rawLat P))) (wrap (clip (rawLon P)))))

/-! ## Each stretch read back, from any starting contents -/

theorem A_v1 (W : Valuation τ sig (Elt F)) :
    after opsA W (Proc.devRef .tc main_v1) = absErr (W (Proc.devRef .tc main_arg0)) (W (Proc.devRef .tc main_arg1)) := by
  after_results_simp <;> rfl

theorem A_v26 (W : Valuation τ sig (Elt F)) :
    after opsA W (Proc.devRef .tc main_v26) = clip (rawLat (W (Proc.devRef .tc main_arg0))) := by
  after_results_simp <;> rfl

theorem A_v25 (W : Valuation τ sig (Elt F)) :
    after opsA W (Proc.devRef .tc main_v25) = rawLon (W (Proc.devRef .tc main_arg0)) := by
  after_results_simp <;> rfl

theorem A_arg2 (W : Valuation τ sig (Elt F)) :
    after opsA W (Proc.devRef .tc main_arg2) = W (Proc.devRef .tc main_arg2) := by
  after_results_simp <;> rfl

theorem B_v27 (W : Valuation τ sig (Elt F)) :
    after opsB W (Proc.devRef .tc main_v27) = clip (W (Proc.devRef .tc main_v25)) := by
  after_results_simp <;> rfl

theorem B_v26 (W : Valuation τ sig (Elt F)) :
    after opsB W (Proc.devRef .tc main_v26) = W (Proc.devRef .tc main_v26) := by
  after_results_simp <;> rfl

theorem B_v1 (W : Valuation τ sig (Elt F)) :
    after opsB W (Proc.devRef .tc main_v1) = W (Proc.devRef .tc main_v1) := by
  after_results_simp <;> rfl

theorem B_arg2 (W : Valuation τ sig (Elt F)) :
    after opsB W (Proc.devRef .tc main_arg2) = W (Proc.devRef .tc main_arg2) := by
  after_results_simp <;> rfl

theorem C_v32 (W : Valuation τ sig (Elt F)) :
    after opsC W (Proc.devRef .tc main_v32) = wrap (W (Proc.devRef .tc main_v26)) := by
  after_results_simp <;> rfl

theorem C_v27 (W : Valuation τ sig (Elt F)) :
    after opsC W (Proc.devRef .tc main_v27) = W (Proc.devRef .tc main_v27) := by
  after_results_simp <;> rfl

theorem C_v1 (W : Valuation τ sig (Elt F)) :
    after opsC W (Proc.devRef .tc main_v1) = W (Proc.devRef .tc main_v1) := by
  after_results_simp <;> rfl

theorem C_arg2 (W : Valuation τ sig (Elt F)) :
    after opsC W (Proc.devRef .tc main_arg2) = W (Proc.devRef .tc main_arg2) := by
  after_results_simp <;> rfl

theorem D_v37 (W : Valuation τ sig (Elt F)) :
    after opsD W (Proc.devRef .tc main_v37) = wrap (W (Proc.devRef .tc main_v27)) := by
  after_results_simp <;> rfl

theorem D_v32 (W : Valuation τ sig (Elt F)) :
    after opsD W (Proc.devRef .tc main_v32) = W (Proc.devRef .tc main_v32) := by
  after_results_simp <;> rfl

theorem D_v1 (W : Valuation τ sig (Elt F)) :
    after opsD W (Proc.devRef .tc main_v1) = W (Proc.devRef .tc main_v1) := by
  after_results_simp <;> rfl

theorem D_arg2 (W : Valuation τ sig (Elt F)) :
    after opsD W (Proc.devRef .tc main_arg2) = W (Proc.devRef .tc main_arg2) := by
  after_results_simp <;> rfl

theorem E_v51 (W : Valuation τ sig (Elt F)) :
    after opsE W (Proc.devRef .tc main_v51) = meanOf (weightedErr (W (Proc.devRef .tc main_v1)) (weights (W (Proc.devRef .tc main_arg2)) (W (Proc.devRef .tc main_v32)) (W (Proc.devRef .tc main_v37)))) := by
  after_results_simp <;> rfl

/-! ## The whole line -/

/-- After the whole line the result buffer holds `result` of the three arguments' starting contents. -/
theorem read_result (V : Valuation τ sig (Elt F)) :
    after ops V (Proc.devRef .tc main_v51) = result (V (Proc.devRef .tc main_arg0)) (V (Proc.devRef .tc main_arg1)) (V (Proc.devRef .tc main_arg2)) := by
  show after (opsA ++ (opsB ++ (opsC ++ (opsD ++ opsE)))) V (Proc.devRef .tc main_v51) = _
  rw [after_append, after_append, after_append, after_append, E_v51, D_v37, D_v32, D_v1, D_arg2, C_v32, C_v27, C_v1, C_arg2,
    B_v27, B_v26, B_v1, B_arg2, A_v26, A_v25, A_v1, A_arg2]
  rfl

/-- The arguments are written by no operation. -/
theorem read_arg0 (V : Valuation τ sig (Elt F)) : after ops V (Proc.devRef .tc main_arg0) = V (Proc.devRef .tc main_arg0) := by
  unfold ops opsA opsB opsC opsD opsE
  simp only [List.cons_append, List.nil_append]
  after_results_simp <;> rfl
theorem read_arg1 (V : Valuation τ sig (Elt F)) : after ops V (Proc.devRef .tc main_arg1) = V (Proc.devRef .tc main_arg1) := by
  unfold ops opsA opsB opsC opsD opsE
  simp only [List.cons_append, List.nil_append]
  after_results_simp <;> rfl
theorem read_arg2 (V : Valuation τ sig (Elt F)) : after ops V (Proc.devRef .tc main_arg2) = V (Proc.devRef .tc main_arg2) := by
  unfold ops opsA opsB opsC opsD opsE
  simp only [List.cons_append, List.nil_append]
  after_results_simp <;> rfl

/-- Every weakly fair execution of the reference terminates with its result at `result` of the arguments' launch
    contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v51).trans (read_result _), (h c main_arg0).trans (read_arg0 _),
      (h c main_arg1).trans (read_arg1 _), (h c main_arg2).trans (read_arg2 _)⟩)
    (run_seq scopedRefs_eq scopedSems_eq defs main (fun _ => ops) main_eq (fun _ => ops_sub) m ρ)

end Cert.ReferenceIdeal.Line

end
-- ==== Proof.LibEntryGather.lean ====
/-
  A gather of single entries of a two-dimensional table, read at an index.

  `x[i, j]` for integer vectors `i`, `j` of length `R` lowers to a gather whose start indices are the `[R, 2]` array of the
  pairs `(i r, j r)`: both operand axes collapsed, slices of one entry, the index vector on axis 1. Result entry `r` is
  the table at row `idx (r, 0)` and column `idx (r, 1)`, each read signed and clamped into the table (into `[0, A - 1]`
  and `[0, B - 1]`): no batch coordinate and no offset coordinate is added, since the result has no offset axis.
-/
import Idealize.ShloMosaic.Lib.ValueIdx

noncomputable section

namespace Cert.GridLoss

open Idealize.ShloMosaic Idealize.ShloMosaic.ValueIdx

variable {α : Type}

/-- The dimension numbers of `x[i, j]` for a table `[A, B]`, start indices `[R, 2]` and a result `[R]`. -/
abbrev entryDims (A B R : Nat)
    (wf : GatherDims.WF ⟨2, ![A, B]⟩ ⟨2, ![R, 2]⟩ ⟨1, ![R]⟩ [] [0, 1] [] [0, 1] [] 1 ![1, 1]) :
    GatherDims ⟨2, ![A, B]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Entry `r` of the gather is the table at the clamped pair of start indices of row `r`. -/
theorem gather_entry_apply {A B R w : Nat} (hA : 0 < A) (hB : 0 < B)
    (wf : GatherDims.WF ⟨2, ![A, B]⟩ ⟨2, ![R, 2]⟩ ⟨1, ![R]⟩ [] [0, 1] [] [0, 1] [] 1 ![1, 1])
    (x : (⟨2, ![A, B]⟩ : Shape).Idx → α) (idx : IVec ⟨2, ![R, 2]⟩ w) (y : (⟨1, ![R]⟩ : Shape).Idx) :
    Host.gather (entryDims A B R wf) x idx y
      = x (ix2 ⟨min (idx (ix2 (y 0) (0 : Fin 2))).toInt.toNat (A - 1), by omega⟩
               ⟨min (idx (ix2 (y 0) (1 : Fin 2))).toInt.toNat (B - 1), by omega⟩) := by
  unfold Host.gather
  congr 1
  funext a
  refine Fin.ext ?_
  match a with
  | ⟨0, _⟩ =>
    show (entryDims A B R wf).start y idx 0 + (entryDims A B R wf).batchCoord y 0 + (entryDims A B R wf).offCoord y 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (entryDims A B R wf).startIndexMap from by simp)]
    have hsi : (entryDims A B R wf).siIdx y ⟨List.idxOf (0 : Fin 2) (entryDims A B R wf).startIndexMap,
        List.idxOf_lt_length_iff.2 (by simp)⟩ = ix2 (y 0) (0 : Fin 2) := by
      funext b; refine Fin.ext ?_
      match b with
      | ⟨0, _⟩ => rfl
      | ⟨1, _⟩ => rfl
    rw [hsi]
    rfl
  | ⟨1, _⟩ =>
    show (entryDims A B R wf).start y idx 1 + (entryDims A B R wf).batchCoord y 1 + (entryDims A B R wf).offCoord y 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 2) ∈ (entryDims A B R wf).startIndexMap from by simp)]
    have hsi : (entryDims A B R wf).siIdx y ⟨List.idxOf (1 : Fin 2) (entryDims A B R wf).startIndexMap,
        List.idxOf_lt_length_iff.2 (by simp)⟩ = ix2 (y 0) (1 : Fin 2) := by
      funext b; refine Fin.ext ?_
      match b with
      | ⟨0, _⟩ => rfl
      | ⟨1, _⟩ => rfl
    rw [hsi]
    rfl

/-- A table entry at two equal pairs of positions. -/
theorem entry_eq {A B : Nat} (x : (⟨2, ![A, B]⟩ : Shape).Idx → α) {a b a' b' : ℕ} (ha : a = a') (hb : b = b')
    (pa : a < A) (pb : b < B) (pa' : a' < A) (pb' : b' < B) :
    x (ix2 (⟨a, pa⟩ : Fin A) (⟨b, pb⟩ : Fin B)) = x (ix2 (⟨a', pa'⟩ : Fin A) (⟨b', pb'⟩ : Fin B)) := by
  subst ha hb; rfl

end Cert.GridLoss

end
-- ==== Proof.RefRows.lean ====
/-
  The reference's stages, read row by row.

  Each stage of the reference's line (RefLine) is read at a row `R`: the raw cell indices are the expressions of the row's
  prediction that RowTerm names; clamped into `[0, 200]` they are never negative, so adding 201 where negative changes
  nothing; the two index columns side by side feed the gather, whose own clamp into the table changes nothing either,
  so the gathered weight is the table's entry at the row's cell; the weighted errors are RowTerm's terms; and the mean
  is the host's quotient by 2²⁴ of zero plus the sum over all rows and both columns.
-/
import proofs.«181261_j69810398429186_2_alg».proof.Proof.RefLine
import proofs.«181261_j69810398429186_2_alg».proof.Proof.RowTerm
import proofs.«181261_j69810398429186_2_alg».proof.Proof.LibEntryGather
import proofs.«181261_j69810398429186_2_alg».proof.Proof.LibColumnLayouts
import Idealize.ShloMosaic.Lib.ValueIdx
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Line Cert.GridLoss
open Idealize.ShloMosaic Idealize.ShloMosaic.ValueIdx

variable (P L : (⟨S8388608x2, .f32⟩ : BufTy).Contents (Elt Ideal)) (W : (⟨S201x201, .f32⟩ : BufTy).Contents (Elt Ideal))

/-- The clamped raw latitude index of row `R` is the row's latitude cell. -/
theorem rawLat_apply (R : Fin 8388608) : clampCell (rawLat (F := Ideal) P (ix1 R)) = latCell (P (ix2 R (0 : Fin 2))) := by
  have e : shapeCast S8388608 (extractStridedSlice S8388608x1 ![0, 0] P slices_S8388608x2_S8388608x1_0_0) shapeCasts_S8388608x1_S8388608 (ix1 R)
      = P (ix2 R (0 : Fin 2)) :=
    (shapeCast_col_vec_apply _ shapeCasts_S8388608x1_S8388608 R).trans
      (slice_col_apply P 0 ![0, 0] rfl rfl slices_S8388608x2_S8388608x1_0_0 R 0)
  unfold rawLat latCell
  show clampCell (IntOp.addi (Ideal.fptosi 32 (Ideal.liftRound Int.floor (Ideal.div
    (shapeCast S8388608 (extractStridedSlice S8388608x1 ![0, 0] P slices_S8388608x2_S8388608x1_0_0) shapeCasts_S8388608x1_S8388608 (ix1 R)
      * Ideal.ofBits .f32 0x43340000#32 - Ideal.ofBits .f32 0x42B40000#32) (Ideal.ofBits .f32 0x3F666666#32)))) 100#32) = _
  rw [e]

/-- The clamped raw longitude index of row `R` is the row's longitude cell. -/
theorem rawLon_apply (R : Fin 8388608) : clampCell (rawLon (F := Ideal) P (ix1 R)) = lonCell (P (ix2 R (1 : Fin 2))) := by
  have e : shapeCast S8388608 (extractStridedSlice S8388608x1 ![0, 1] P slices_S8388608x2_S8388608x1_0_1) shapeCasts_S8388608x1_S8388608 (ix1 R)
      = P (ix2 R (1 : Fin 2)) :=
    (shapeCast_col_vec_apply _ shapeCasts_S8388608x1_S8388608 R).trans
      (slice_col_apply P 1 ![0, 1] rfl rfl slices_S8388608x2_S8388608x1_0_1 R 0)
  unfold rawLon lonCell
  show clampCell (IntOp.addi (Ideal.fptosi 32 (Ideal.liftRound Int.floor (Ideal.div
    (shapeCast S8388608 (extractStridedSlice S8388608x1 ![0, 1] P slices_S8388608x2_S8388608x1_0_1) shapeCasts_S8388608x1_S8388608 (ix1 R)
      * Ideal.ofBits .f32 0x43B40000#32 - Ideal.ofBits .f32 0x43340000#32) (Ideal.ofBits .f32 0x3FE66666#32)))) 100#32) = _
  rw [e]

/-- Clamped and passed through the wrap-around step, the latitude index is still the row's latitude cell. -/
theorem lat_cell (R : Fin 8388608) : wrap (clip (rawLat (F := Ideal) P)) (ix1 R) = latCell (P (ix2 R (0 : Fin 2))) := by
  show Scalar.select (IntOp.cmpi .slt (clampCell (rawLat (F := Ideal) P (ix1 R))) 0#32)
    (IntOp.addi (clampCell (rawLat (F := Ideal) P (ix1 R))) 201#32) (clampCell (rawLat (F := Ideal) P (ix1 R))) = _
  rw [rawLat_apply]
  exact select_of_not_neg _ _ (latCell_not_neg _)

theorem lon_cell (R : Fin 8388608) : wrap (clip (rawLon (F := Ideal) P)) (ix1 R) = lonCell (P (ix2 R (1 : Fin 2))) := by
  show Scalar.select (IntOp.cmpi .slt (clampCell (rawLon (F := Ideal) P (ix1 R))) 0#32)
    (IntOp.addi (clampCell (rawLon (F := Ideal) P (ix1 R))) 201#32) (clampCell (rawLon (F := Ideal) P (ix1 R))) = _
  rw [rawLon_apply]
  exact select_of_not_neg _ _ (lonCell_not_neg _)

/-- A vector `[n]` laid out as a column `[n, 1]` reads, at `(R, u)`, the vector at `R`. -/
theorem column_apply {α : Type} (a : S8388608.Idx → α) (R : Fin 8388608) (u : Fin 1) :
    broadcastInDim S8388608x1 ![0] bcast_S8388608_S8388608x1_0 a (ix2 R u) = a (ix1 R) :=
  broadcastInDim_apply _ bcast_S8388608_S8388608x1_0 a (ix2 R u) (ix1 R) (fun ax => match ax with
    | ⟨0, _⟩ => by show R.val = if (8388608 : Nat) = 1 then 0 else R.val; rw [if_neg (by decide)])

/-- Two index vectors side by side as the columns of an `[n, 2]` array: column 0 reads the first. -/
theorem pair_fst {α : Type} (a b : S8388608.Idx → α) (R : Fin 8388608) :
    concatenate S8388608x2 1 [⟨S8388608x1, broadcastInDim S8388608x1 ![0] bcast_S8388608_S8388608x1_0 a⟩,
      ⟨S8388608x1, broadcastInDim S8388608x1 ![0] bcast_S8388608_S8388608x1_0 b⟩]
      concatenates_S8388608x1_S8388608x1_S8388608x2_d1 (ix2 R (0 : Fin 2)) = a (ix1 R) := by
  refine (concatenate_pair_apply_left _ _ _ concatenates_S8388608x1_S8388608x1_S8388608x2_d1 (ix2 R (0 : Fin 2)) rfl
    (ix2 R (0 : Fin 1)) (fun b => by match b with | ⟨0, _⟩ => rfl | ⟨1, _⟩ => rfl)).trans ?_
  exact column_apply a R 0

/-- Column 1 reads the second. -/
theorem pair_snd {α : Type} (a b : S8388608.Idx → α) (R : Fin 8388608) :
    concatenate S8388608x2 1 [⟨S8388608x1, broadcastInDim S8388608x1 ![0] bcast_S8388608_S8388608x1_0 a⟩,
      ⟨S8388608x1, broadcastInDim S8388608x1 ![0] bcast_S8388608_S8388608x1_0 b⟩]
      concatenates_S8388608x1_S8388608x1_S8388608x2_d1 (ix2 R (1 : Fin 2)) = b (ix1 R) := by
  refine (concatenate_pair_apply_right _ _ _ concatenates_S8388608x1_S8388608x1_S8388608x2_d1 (ix2 R (1 : Fin 2)) rfl rfl
    (ix2 R (0 : Fin 1)) (fun b hb => by
      match b with
      | ⟨0, _⟩ => rfl
      | ⟨1, _⟩ => exact absurd rfl hb) rfl).trans ?_
  exact column_apply b R 0

/-- The gather at row `R` reads the table at the row's pair of indices, each read signed and clamped into the table. -/
theorem weights_at (a b : (⟨S8388608, .i32⟩ : BufTy).Contents (Elt Ideal)) (R : Fin 8388608) :
    weights (F := Ideal) W a b (ix1 R)
      = W (ix2 (⟨min (a (ix1 R)).toInt.toNat (201 - 1), by omega⟩ : Fin 201) (⟨min (b (ix1 R)).toInt.toNat (201 - 1), by omega⟩ : Fin 201)) := by
  unfold weights
  have hd : gather_S201x201_S8388608x2_S8388608_n_01_n_n_01_1_11
      = entryDims 201 201 8388608 gather_S201x201_S8388608x2_S8388608_n_01_n_n_01_1_11.wf := rfl
  rw [hd]
  refine (gather_entry_apply (by decide) (by decide) _ W _ (ix1 R)).trans ?_
  refine entry_eq W ?_ ?_ _ _ _ _
  · exact congrArg (fun z : BitVec 32 => min z.toInt.toNat (201 - 1)) (pair_fst a b R)
  · exact congrArg (fun z : BitVec 32 => min z.toInt.toNat (201 - 1)) (pair_snd a b R)

/-- The gathered weight of row `R` is the table's entry at the row's cell. -/
theorem weights_apply (R : Fin 8388608) :
    weights W (wrap (clip (rawLat (F := Ideal) P))) (wrap (clip (rawLon (F := Ideal) P))) (ix1 R)
      = weightAt W (P (ix2 R (0 : Fin 2))) (P (ix2 R (1 : Fin 2))) := by
  rw [weights_at]
  unfold weightAt
  refine entry_eq W ?_ ?_ _ _ _ _
  · rw [lat_cell]; exact latCell_min _
  · rw [lon_cell]; exact lonCell_min _

/-- A weighted error at row `R`, column `c`. -/
theorem weightedErr_apply (e : (⟨S8388608x2, .f32⟩ : BufTy).Contents (Elt Ideal)) (w : (⟨S8388608, .f32⟩ : BufTy).Contents (Elt Ideal)) (R : Fin 8388608) (c : Fin 2) :
    weightedErr (F := Ideal) e w (ix2 R c)
      = e (ix2 R c) + e (ix2 R c) * (Ideal.ofBits .f32 0x3DCCCCCD#32 - Ideal.ofBits .f32 0x3DCCCCCD#32 * w (ix1 R)) := by
  have e1 : ∀ y : (⟨S8388608x1, .f32⟩ : BufTy).Contents (Elt Ideal),
      broadcastInDim (s := S8388608x1) S8388608x2 ![0, 1] bcast_S8388608x1_S8388608x2_0_1 y (ix2 R c) = y (ix2 R (0 : Fin 1)) := fun y =>
    broadcastInDim_apply _ bcast_S8388608x1_S8388608x2_0_1 y (ix2 R c) (ix2 R (0 : Fin 1)) (fun ax => match ax with
      | ⟨0, _⟩ => by show R.val = if (8388608 : Nat) = 1 then 0 else R.val; rw [if_neg (by decide)]
      | ⟨1, _⟩ => by show 0 = if (1 : Nat) = 1 then 0 else c.val; rw [if_pos rfl])
  unfold weightedErr
  show e (ix2 R c) + e (ix2 R c) * (broadcastInDim (s := S8388608x1) S8388608x2 ![0, 1] bcast_S8388608x1_S8388608x2_0_1 _ (ix2 R c)) = _
  rw [e1]
  show e (ix2 R c) + e (ix2 R c) * (Ideal.ofBits .f32 0x3DCCCCCD#32 - Ideal.ofBits .f32 0x3DCCCCCD#32
    * broadcastInDim S8388608x1 ![0] bcast_S8388608_S8388608x1_0 w (ix2 R (0 : Fin 1))) = _
  rw [column_apply]

/-- The mean of an array: the host's quotient by 2²⁴ of zero plus the sum of all its entries. -/
theorem meanOf_apply (x : (⟨S8388608x2, .f32⟩ : BufTy).Contents (Elt Ideal)) (i : S_.Idx) :
    meanOf (F := Ideal) x i = Ideal.div (Ideal.ofBits .f32 0x00000000#32 + ∑ j : S8388608x2.Idx, x j) (Ideal.ofBits .f32 0x4B800000#32) := by
  unfold meanOf
  have hs : Host.reduceAdd (F := Ideal) x (constant (F := Ideal) S_ .f32 0x00000000#32) reducesTo_S8388608x2_S_d0_1 h_S_ i
      = Ideal.ofBits .f32 0x00000000#32 + ∑ j : S8388608x2.Idx, x j := by
    simp only [Host.reduceAdd, Ideal.hostReduceAdd_def]
    exact Ideal.hostReduceAdd_total reducesTo_S8388608x2_S_d0_1 (fun b => b.elim0) x _ i
  show Ideal.div (Host.reduceAdd (F := Ideal) x (constant (F := Ideal) S_ .f32 0x00000000#32) reducesTo_S8388608x2_S_d0_1 h_S_ i)
    (Ideal.ofBits .f32 0x4B800000#32) = _
  rw [hs]

/-- The reference's result: the host's quotient by 2²⁴ of zero plus the sum of every row's loss. -/
theorem result_rows (i : S_.Idx) :
    result (F := Ideal) P L W i
      = Ideal.div (Ideal.ofBits .f32 0x00000000#32 + ∑ R : Fin 8388608, rowLoss P L W R) (Ideal.ofBits .f32 0x4B800000#32) := by
  unfold result
  rw [meanOf_apply]
  have hs : ∑ j : S8388608x2.Idx, weightedErr (F := Ideal) (absErr P L)
        (weights W (wrap (clip (rawLat (F := Ideal) P))) (wrap (clip (rawLon (F := Ideal) P)))) j
      = ∑ R : Fin 8388608, rowLoss P L W R := by
    rw [sum_idx2]
    refine Finset.sum_congr rfl fun R _ => ?_
    unfold rowLoss
    refine Finset.sum_congr rfl fun c _ => ?_
    rw [weightedErr_apply, weights_apply]
    rfl
  rw [hs]

end Cert.ReferenceIdeal.Rows

end
-- ==== Proof.lean ====
/-
  A weighted absolute-error loss over 8388608 rows: the accelerator program against its plain reference, at the exact
  (extended-real) values.

  Both programs compute, for every row, the cell `(⌊(180 p₀ - 90) / 0.9⌋ + 100, ⌊(360 p₁ - 180) / 1.8⌋ + 100)` clamped into
  `[0, 200]²`, the weight `w` of that cell in a 201 × 201 table, and the two terms `e + e · (0.1 - 0.1 · w)` with `e` the
  absolute error of one coordinate; the result is the sum of all terms divided by 2²⁴.

  They differ in two ways. The reference reads the weight with a gather; the accelerator with two one-hot rows, a matrix
  product and a lane sum — the same entry, since `0 · x = 0` and `1 · x = x` for every extended real. The reference sums
  everything at once; the accelerator sums blocks of 4096 rows, accumulates 1024 blocks per half over the grid, and adds
  the two halves on the host — the same sum, since addition of extended reals is associative and commutative. Neither step
  uses finiteness of the inputs, so the precondition is never opened.

  The two programs' frames are the generated frame runs; the reference's is its run (read back in five stretches) with the
  result dropped; the
  idealization rewrote nothing, so `preserves` is `True`.
-/
import proofs.«181261_j69810398429186_2_alg».proof.Defs
import proofs.«181261_j69810398429186_2_alg».proof.Proof.Gen.Kernel
import proofs.«181261_j69810398429186_2_alg».proof.Proof.Gen.Kernel.Skeleton
import proofs.«181261_j69810398429186_2_alg».proof.Proof.Gen.Kernel.Launch
import proofs.«181261_j69810398429186_2_alg».proof.Proof.Gen.Kernel.Points
import proofs.«181261_j69810398429186_2_alg».proof.Proof.Gen.Kernel.Frame
import proofs.«181261_j69810398429186_2_alg».proof.Proof.Gen.KernelIdeal
import proofs.«181261_j69810398429186_2_alg».proof.Proof.Gen.KernelIdeal.Skeleton
import proofs.«181261_j69810398429186_2_alg».proof.Proof.Gen.KernelIdeal.Launch
import proofs.«181261_j69810398429186_2_alg».proof.Proof.Gen.KernelIdeal.Points
import proofs.«181261_j69810398429186_2_alg».proof.Proof.Gen.KernelIdeal.Frame
import proofs.«181261_j69810398429186_2_alg».proof.Proof.Gen.ReferenceIdeal
import proofs.«181261_j69810398429186_2_alg».proof.Proof.Gen.Pre_finite_inputs
import proofs.«181261_j69810398429186_2_alg».proof.Proof.KernelValue
import proofs.«181261_j69810398429186_2_alg».proof.Proof.RefRows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Line.run (F := Ideal) m ρ)

theorem preserves : Cert.preserves_Kernel_KernelIdeal := trivial

/-- Both runs end with the result at the quotient by 2²⁴ of the sum of every row's loss, of arguments that agree. -/
theorem algebraic : Cert.algebraic_KernelIdeal_ReferenceIdeal := by
  intro m ρ m' ρ' _ hagree
  refine ⟨_, Cert.KernelIdeal.Total.run m ρ, ?_⟩
  refine (θ_run Cert.ReferenceIdeal.defs _ _).mono (fun _ h c => ⟨(h c).1.trans ?_, (h c).2⟩)
    (Cert.ReferenceIdeal.Line.run (F := Ideal) m' ρ')
  rw [(hagree c).1, (hagree c).2.1, (hagree c).2.2]
  funext i
  exact (Cert.ReferenceIdeal.Rows.result_rows _ _ _ i).trans (Cert.KernelIdeal.Total.result_rows m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
